-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S1600000 : Shape := ⟨1, ![1600000]⟩
abbrev S8x64 : Shape := ⟨2, ![8, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S64x1 : Shape := ⟨2, ![64, 1]⟩
abbrev S1 : Shape := ⟨1, ![1]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S4x64 .f32) (main_arg9 : FVec F S64x64 .f32) (main_arg10 : FVec F S64 .f32) (main_arg11 : FVec F S64x1 .f32) (main_arg12 : FVec F S1 .f32) (main_v33 : IVec S_ 1) : IVec S_ 1 :=
  let main_v34 : FVec F S4x64 .f32 := Host.absf main_arg8
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg11
  let main_cst_18 : FVec F S_ .f32 := constant S_ .f32 0x7F800000#32
  let main_v50 : FVec F S64x1 .f32 := broadcastInDim S64x1 ![] bcast_S_S64x1 main_cst_18
  fn_part3 (F := F) main_arg12 main_v48 main_v49 main_v50

def fn_part1 {F : FTy → Type} [FloatOps F] (main_arg5 : FVec F S64x64 .f32) (main_arg6 : FVec F S64 .f32) (main_arg7 : FVec F S4x64x64 .f32) (main_arg8 : FVec F S4x64 .f32) (main_arg9 : FVec F S64x64 .f32) (main_arg10 : FVec F S64 .f32) (main_arg11 : FVec F S64x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4x64x64 .f32 := Host.absf main_arg7
  let main_cst_10 : FVec F S_ .f32 := constant S_ .f32 0x7F800000#32
  let main_v30 : FVec F S4x64x64 .f32 := broadcastInDim S4x64x64 ![] bcast_S_S4x64x64 main_cst_10
  let main_v31 : IVec S4x64x64 1 := cmpf .olt main_v29 main_v30
  let main_c_11 : IVec S_ 1 := constantI S_ 1 1#1
  let main_v32 : IVec S_ 1 := (fun x v => Host.reduce IntOp.andi x v reducesTo_S4x64x64_S_d0_1_2 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x8 .f32) (main_arg1 : IVec S2x1600000 32) (main_arg2 : FVec F S1600000 .f32) (main_arg3 : FVec F S8x64 .f32) (main_arg4 : FVec F S64 .f32) (main_arg5 : FVec F S64x64 .f32) (main_arg6 : FVec F S64 .f32) (main_arg7 : FVec F S4x64x64 .f32) (main_arg8 : FVec F S4x64 .f32) (main_arg9 : FVec F S64x64 .f32) (main_arg10 : FVec F S64 .f32) (main_arg11 : FVec F S64x1 .f32) (main_arg12 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S8x64 .f32 := Host.absf main_arg3
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x8 : Shape := ⟨2, ![100000, 8]⟩
abbrev S2x1600000 : Shape := ⟨2, ![2, 1600000]⟩
abbrev S1600000 : Shape := ⟨1, ![1600000]⟩
abbrev S8x64 : Shape := ⟨2, ![8, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1x64x64 : Shape := ⟨3, ![1, 64, 64]⟩
abbrev S1x64 : Shape := ⟨2, ![1, 64]⟩
abbrev S100000x64 : Shape := ⟨2, ![100000, 64]⟩
abbrev S5000x8 : Shape := ⟨2, ![5000, 8]⟩
abbrev S5000x64 : Shape := ⟨2, ![5000, 64]⟩
abbrev S1700000x64 : Shape := ⟨2, ![1700000, 64]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 152
  | .vmem => 36
  | .smem => 0
  | _ => 0

abbrev hbmTy0_0 (i : Nat) : BufTy := match i % 128 with
  | 0 => ⟨S100000x8, .f32⟩
  | 1 => ⟨S2x1600000, .i32⟩
  | 2 => ⟨S1600000, .f32⟩
  | 3 => ⟨S8x64, .f32⟩
  | 4 => ⟨S64, .f32⟩
  | 5 => ⟨S64x64, .f32⟩
  | 6 => ⟨S64, .f32⟩
  | 7 => ⟨S4x64x64, .f32⟩
  | 8 => ⟨S4x64, .f32⟩
  | 9 => ⟨S64x64, .f32⟩
  | 10 => ⟨S64, .f32⟩
  | 11 => ⟨S64x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .i1⟩
  | 33 => ⟨S_, .f32⟩
  | 34 => ⟨S_, .f32⟩
  | 35 => ⟨S100000, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S1700000x1, .f32⟩
  | 63 => ⟨S1x64x64, .f32⟩
  | 64 => ⟨S64x64, .f32⟩
  | 65 => ⟨S1x64, .f32⟩
  | 66 => ⟨S1x64, .f32⟩
  | 67 => ⟨S100000x64, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x64, .f32⟩
  | 77 => ⟨S1700000x64, .f32⟩
  | 78 => ⟨S1700000x64, .f32⟩
  | 79 => ⟨S_, .f32⟩
  | 80 => ⟨S100000x64, .f32⟩
  | 81 => ⟨S1700000x1, .i32⟩
  | 82 => ⟨S100000x64, .f32⟩
  | 83 => ⟨S1x64, .f32⟩
  | 84 => ⟨S64, .f32⟩
  | 85 => ⟨S1x64x64, .f32⟩
  | 86 => ⟨S64x64, .f32⟩
  | 87 => ⟨S1x64, .f32⟩
  | 88 => ⟨S100000x64, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000x64, .f32⟩
  | 98 => ⟨S1700000x64, .f32⟩
  | 99 => ⟨S1700000x64, .f32⟩
  | 100 => ⟨S_, .f32⟩
  | 101 => ⟨S100000x64, .f32⟩
  | 102 => ⟨S1700000x1, .i32⟩
  | 103 => ⟨S100000x64, .f32⟩
  | 104 => ⟨S1x64, .f32⟩
  | 105 => ⟨S64, .f32⟩
  | 106 => ⟨S1x64x64, .f32⟩
  | 107 => ⟨S64x64, .f32⟩
  | 108 => ⟨S1x64, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S64, .f32⟩
  | 127 => ⟨S1x64x64, .f32⟩
  | _ => ⟨S100000x8, .f32⟩

abbrev hbmTy0_1 (i : Nat) : BufTy := match i % 128 with
  | 0 => ⟨S64x64, .f32⟩
  | 1 => ⟨S1x64, .f32⟩
  | 2 => ⟨S100000x64, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x64, .f32⟩
  | 12 => ⟨S1700000x64, .f32⟩
  | 13 => ⟨S1700000x64, .f32⟩
  | 14 => ⟨S_, .f32⟩
  | 15 => ⟨S100000x64, .f32⟩
  | 16 => ⟨S1700000x1, .i32⟩
  | 17 => ⟨S100000x64, .f32⟩
  | 18 => ⟨S1x64, .f32⟩
  | 19 => ⟨S64, .f32⟩
  | 20 => ⟨S1x64, .f32⟩
  | 21 => ⟨S1x64, .f32⟩
  | 22 => ⟨S1x1, .f32⟩
  | 23 => ⟨S100000x1, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | .local _ .vmem, ⟨0, _⟩ => ⟨S5000x8, .f32⟩
  | .local _ .vmem, ⟨1, _⟩ => ⟨S5000x8, .f32⟩
  | .local _ .vmem, ⟨2, _⟩ => ⟨S8x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S64x1, .f32⟩
  | .local _ .vmem, ⟨33, _⟩ => ⟨S1x1, .f32⟩
  | .local _ .vmem, ⟨34, _⟩ => ⟨S5000x1, .f32⟩
  | .local _ .vmem, ⟨35, _⟩ => ⟨S5000x1, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_c_7 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_c_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_14 : Ref sig .tc := ⟨.hbm, 110, rfl⟩
abbrev main_v77 : Ref sig .tc := ⟨.hbm, 111, rfl⟩
abbrev main_v78 : Ref sig .tc := ⟨.hbm, 112, rfl⟩
abbrev main_c_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_19 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem6_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  slices_S4x64x64_S1x64x64_0_0_0 : S4x64x64.Slices ![0, 0, 0] S1x64x64
  shapeCasts_S1x64x64_S64x64 : S1x64x64.ShapeCasts S64x64
  shapeCasts_S64_S1x64 : S64.ShapeCasts S1x64
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  shapeCasts_S5000x64_S5000x64 : S5000x64.ShapeCasts S5000x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x8_S8x64_S5000x64_1_0_0_1_n_n_wf : DotDims.WF S5000x8 S8x64 S5000x64 [1] [0] [0] [1] [] []
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x1.size a ≤ S100000x1.size a
  hwx4_6 : ∀ i : grid4.Coords, EltTy.bits .f32 = 32 ∨ (Rect.block (s := S100000x1) S5000x1.size (cc4_transform_6 i) (hinb4_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v52) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v70) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v88) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v92) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v106) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v110) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S64x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v111) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v112) S5000x1.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x8 : Shape := ⟨2, ![100000, 8]⟩
abbrev S2x1600000 : Shape := ⟨2, ![2, 1600000]⟩
abbrev S1600000 : Shape := ⟨1, ![1600000]⟩
abbrev S8x64 : Shape := ⟨2, ![8, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1x64x64 : Shape := ⟨3, ![1, 64, 64]⟩
abbrev S1700000x64 : Shape := ⟨2, ![1700000, 64]⟩
abbrev S100000x1 : Shape := ⟨2, ![100000, 1]⟩
abbrev S1x1 : Shape := ⟨2, ![1, 1]⟩

abbrev nBuf : Space → Nat
  | .hbm => 192
  | .vmem => 0
  | .smem => 0
  | _ => 0

abbrev hbmTy0_0 (i : Nat) : BufTy := match i % 128 with
  | 0 => ⟨S100000x8, .f32⟩
  | 1 => ⟨S2x1600000, .i32⟩
  | 2 => ⟨S1600000, .f32⟩
  | 3 => ⟨S8x64, .f32⟩
  | 4 => ⟨S64, .f32⟩
  | 5 => ⟨S64x64, .f32⟩
  | 6 => ⟨S64, .f32⟩
  | 7 => ⟨S4x64x64, .f32⟩
  | 8 => ⟨S4x64, .f32⟩
  | 9 => ⟨S64x64, .f32⟩
  | 10 => ⟨S64, .f32⟩
  | 11 => ⟨S64x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .i1⟩
  | 33 => ⟨S_, .f32⟩
  | 34 => ⟨S_, .f32⟩
  | 35 => ⟨S100000, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S1x64x64, .f32⟩
  | 74 => ⟨S64x64, .f32⟩
  | 75 => ⟨S100000x64, .f32⟩
  | 76 => ⟨S1700000x1, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x64, .f32⟩
  | 86 => ⟨S1700000x64, .f32⟩
  | 87 => ⟨S1700000x64, .f32⟩
  | 88 => ⟨S_, .f32⟩
  | 89 => ⟨S100000x64, .f32⟩
  | 90 => ⟨S1700000x1, .i32⟩
  | 91 => ⟨S100000x64, .f32⟩
  | 92 => ⟨S1x64, .f32⟩
  | 93 => ⟨S64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S1x64x64, .f32⟩
  | 101 => ⟨S64x64, .f32⟩
  | 102 => ⟨S100000x64, .f32⟩
  | 103 => ⟨S1700000x1, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x64, .f32⟩
  | 113 => ⟨S1700000x64, .f32⟩
  | 114 => ⟨S1700000x64, .f32⟩
  | 115 => ⟨S_, .f32⟩
  | 116 => ⟨S100000x64, .f32⟩
  | 117 => ⟨S1700000x1, .i32⟩
  | 118 => ⟨S100000x64, .f32⟩
  | 119 => ⟨S1x64, .f32⟩
  | 120 => ⟨S64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S1x64x64, .f32⟩
  | _ => ⟨S100000x8, .f32⟩

abbrev hbmTy0_1 (i : Nat) : BufTy := match i % 128 with
  | 0 => ⟨S64x64, .f32⟩
  | 1 => ⟨S100000x64, .f32⟩
  | 2 => ⟨S1700000x1, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x64, .f32⟩
  | 12 => ⟨S1700000x64, .f32⟩
  | 13 => ⟨S1700000x64, .f32⟩
  | 14 => ⟨S_, .f32⟩
  | 15 => ⟨S100000x64, .f32⟩
  | 16 => ⟨S1700000x1, .i32⟩
  | 17 => ⟨S100000x64, .f32⟩
  | 18 => ⟨S1x64, .f32⟩
  | 19 => ⟨S64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S1x64x64, .f32⟩
  | 27 => ⟨S64x64, .f32⟩
  | 28 => ⟨S100000x64, .f32⟩
  | 29 => ⟨S1700000x1, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x64, .f32⟩
  | 39 => ⟨S1700000x64, .f32⟩
  | 40 => ⟨S1700000x64, .f32⟩
  | 41 => ⟨S_, .f32⟩
  | 42 => ⟨S100000x64, .f32⟩
  | 43 => ⟨S1700000x1, .i32⟩
  | 44 => ⟨S100000x64, .f32⟩
  | 45 => ⟨S1x64, .f32⟩
  | 46 => ⟨S64, .f32⟩
  | 47 => ⟨S1x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S100000x1, .f32⟩
  | 61 => ⟨S1x1, .f32⟩
  | 62 => ⟨S100000x1, .f32⟩
  | 63 => ⟨S100000x1, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_c_7 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call2_cst : Ref sig .tc := ⟨.hbm, 66, rfl⟩
abbrev main_call2_v0 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_8 : Ref sig .tc := ⟨.hbm, 77, rfl⟩
abbrev main_v48 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call3_cst : Ref sig .tc := ⟨.hbm, 97, rfl⟩
abbrev main_call3_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_11 : Ref sig .tc := ⟨.hbm, 104, rfl⟩
abbrev main_v70 : Ref sig .tc := ⟨.hbm, 105, rfl⟩
abbrev main_v71 : Ref sig .tc := ⟨.hbm, 106, rfl⟩
abbrev main_c_12 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_13 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call4_cst : Ref sig .tc := ⟨.hbm, 124, rfl⟩
abbrev main_call4_v0 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_14 : Ref sig .tc := ⟨.hbm, 131, rfl⟩
abbrev main_v92 : Ref sig .tc := ⟨.hbm, 132, rfl⟩
abbrev main_v93 : Ref sig .tc := ⟨.hbm, 133, rfl⟩
abbrev main_c_15 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_16 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_call5_cst : Ref sig .tc := ⟨.hbm, 151, rfl⟩
abbrev main_call5_v0 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_c_17 : Ref sig .tc := ⟨.hbm, 158, rfl⟩
abbrev main_v114 : Ref sig .tc := ⟨.hbm, 159, rfl⟩
abbrev main_v115 : Ref sig .tc := ⟨.hbm, 160, rfl⟩
abbrev main_c_18 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_19 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_call6_cst : Ref sig .tc := ⟨.hbm, 178, rfl⟩
abbrev main_call6_v0 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_call7_cst : Ref sig .tc := ⟨.hbm, 185, rfl⟩
abbrev main_call7_v0 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  bcast_S1700000x1_S1700000x64_0_1 : S1700000x1.BroadcastsInDim S1700000x64 (![0, 1] : Fin 2 → Fin S1700000x64.rank)
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x8_S8x64_S100000x64_1_0_0_1_n_n_wf : DotDims.WF S100000x8 S8x64 S100000x64 [1] [0] [0] [1] [] []
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run, with its result named.

  The program is five launches of row-blocked kernels among stretches of host operations.  Its generated frame follows
  the contents of every buffer of a core through those fourteen segments: a stretch of host operations rewrites the
  buffers it computes, a launch replaces its output array by what its grid points wrote back and leaves every other
  buffer alone.  The last of these contents, `W14`, is what every weakly fair execution ends in, on every buffer that
  lives outside a launch.  The frame reads only the argument arrays off it.  Here the same run is read at the result
  array as well: the program's result is `W14` at the result buffer, and the arguments are unchanged.
-/
import proofs.«166639_j14147622273759_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched. -/
theorem run : θ_run defs (onTc (τ := τ) (main (F := F))) ⟨m, fun _ => 0, ρ⟩ (fun r => ∀ c : Dev nD,
      r.2.mem ((c.tc : Thread nD τ).loc main_v112) = W14 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v112 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.Result

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«166639_j14147622273759_1_alg».proof.Proof.LibPlainDot
import proofs.«166639_j14147622273759_1_alg».proof.Proof.LibBiasRow
import proofs.«166639_j14147622273759_1_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.Dense.lean ====
/-
  The dense stages of a graph network on a node-feature matrix: three compositions of row-wise stages.

  The encoder followed by the first graph layer's linear map, one graph layer after its aggregation (bias, floor, linear
  map), and the last layer's bias and floor followed by the decoder are fixed compositions of the matrix product, the
  bias row and the floor on matrices of extended reals.  Each of those works one row at a time, so each composition does:
  a stage computed on a block of rows is the same rows of the stage of the whole matrix.
-/
import proofs.«166639_j14147622273759_1_alg».proof.Proof.LibRowStages

noncomputable section

namespace Cert.Dense

open Idealize.ShloMosaic Idealize.ShloMosaic.ValueIdx Cert.LibRowStages

/-- The encoder (a linear map, a bias, the floor, a second linear map and bias) followed by the first graph layer's
    linear map. -/
def encode {n : ℕ} (x : Mat n 8) (w1 : Mat 8 64) (b1 : Mat 1 64) (w2 : Mat 64 64) (b2 : Mat 1 64) (w0 : Mat 64 64) :
    Mat n 64 :=
  mm (addRow (mm (relu (addRow (mm x w1) b1)) w2) b2) w0

/-- One graph layer after its aggregation: the bias, the floor, the next layer's linear map. -/
def layer {n : ℕ} (a : Mat n 64) (b : Mat 1 64) (w : Mat 64 64) : Mat n 64 := mm (relu (addRow a b)) w

/-- The last layer's bias and floor followed by the decoder (a linear map, a bias, the floor, a linear map to one
    column, a bias). -/
def decode {n : ℕ} (a : Mat n 64) (b3 : Mat 1 64) (w1 : Mat 64 64) (b1 : Mat 1 64) (w2 : Mat 64 1) (b2 : Mat 1 1) :
    Mat n 1 :=
  addRow (mm (relu (addRow (mm (relu (addRow a b3)) w1) b1)) w2) b2

/-! ## One row at a time -/

theorem encode_row {m n : ℕ} {xb : Mat m 8} {q : Fin m} {x : Mat n 8} {p : Fin n} (h : RowEq xb q x p)
    (w1 : Mat 8 64) (b1 : Mat 1 64) (w2 : Mat 64 64) (b2 : Mat 1 64) (w0 : Mat 64 64) :
    RowEq (encode xb w1 b1 w2 b2 w0) q (encode x w1 b1 w2 b2 w0) p :=
  mm_row (addRow_row (mm_row (relu_row (addRow_row (mm_row h w1) b1)) w2) b2) w0

theorem layer_row {m n : ℕ} {ab : Mat m 64} {q : Fin m} {a : Mat n 64} {p : Fin n} (h : RowEq ab q a p)
    (b : Mat 1 64) (w : Mat 64 64) : RowEq (layer ab b w) q (layer a b w) p :=
  mm_row (relu_row (addRow_row h b)) w

theorem decode_row {m n : ℕ} {ab : Mat m 64} {q : Fin m} {a : Mat n 64} {p : Fin n} (h : RowEq ab q a p)
    (b3 : Mat 1 64) (w1 : Mat 64 64) (b1 : Mat 1 64) (w2 : Mat 64 1) (b2 : Mat 1 1) :
    RowEq (decode ab b3 w1 b1 w2 b2) q (decode a b3 w1 b1 w2 b2) p :=
  addRow_row (mm_row (relu_row (addRow_row (mm_row (relu_row (addRow_row h b3)) w1) b1)) w2) b2

end Cert.Dense

end
-- ==== Proof.Region0.lean ====
/-
  Launch 0 (the encoder and the first graph layer's linear map): the array it leaves is that stage of the arrays it finds.

  The launch walks the node-feature matrix in 20 blocks of 5000 rows.  At grid point t it loads rows 5000 t … 5000 t + 4999
  of the features and the whole of the five small operands (two weight matrices with their bias rows, and the first
  layer's weights), and stores the stage of those as the same rows of its result.  Each of the stage's operations works
  one row at a time, so the stored block is the same rows of the stage of the WHOLE feature matrix; every row 0 … 99999
  lies in the block of the point (row / 5000).  Hence the result array is the stage of the whole arrays as the launch
  found them, entry by entry, whatever those contents are.
-/
import proofs.«166639_j14147622273759_1_alg».proof.Proof.Gen.KernelIdeal.Frame
import proofs.«166639_j14147622273759_1_alg».proof.Proof.Dense

set_option maxRecDepth 16384

noncomputable section

namespace Cert.KernelIdeal.Region0

open Cert.KernelIdeal Cert.KernelIdeal.Gen Cert.Dense Cert.LibRowStages
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value is the stage of the six blocks it loaded: the casts to the same shape and the changes of
    float format change nothing, each sum with a spread bias row is `addRow`, the maximum with the zero splat the floor,
    each product into the zero accumulator the matrix product. -/
theorem stored_eq (x0 : Vec Ideal S5000x8 .f32) (x1 : Vec Ideal S8x64 .f32) (x2 : Vec Ideal S1x64 .f32)
    (x3 : Vec Ideal S64x64 .f32) (x4 : Vec Ideal S1x64 .f32) (x5 : Vec Ideal S64x64 .f32) :
    k0_pay1 (F := Ideal) x0 x1 x2 x3 x4 x5 = encode x0 x1 x2 x3 x4 x5 := by
  unfold k0_pay1
  rw [shapeCast_self x2, shapeCast_self x4, shapeCast_self x5]
  show matmul (F := Ideal) (φ₁ := .bf16) (φ₂ := .bf16) dot_S5000x64_S64x64_S5000x64_1_0_0_1_n_n none
      (addf (F := Ideal) (φ := .f32)
        (matmul (F := Ideal) (φ₁ := .bf16) (φ₂ := .bf16) dot_S5000x64_S64x64_S5000x64_1_0_0_1_n_n none
          (relu (addf (F := Ideal) (φ := .f32)
            (matmul (F := Ideal) (φ₁ := .bf16) (φ₂ := .bf16) dot_S5000x8_S8x64_S5000x64_1_0_0_1_n_n none
              (x0 : FVec Ideal S5000x8 .bf16) (x1 : FVec Ideal S8x64 .bf16) (constant S5000x64 .f32 0x00000000#32))
            (broadcastTo S5000x64 x2 broadcasts_S1x64_S5000x64)))
          (x3 : FVec Ideal S64x64 .bf16) (constant S5000x64 .f32 0x00000000#32))
        (broadcastTo S5000x64 x4 broadcasts_S1x64_S5000x64))
      (x5 : FVec Ideal S64x64 .bf16) (constant S5000x64 .f32 0x00000000#32) = _
  rw [matmul_eq_mm dot_S5000x64_S64x64_S5000x64_1_0_0_1_n_n rfl rfl rfl rfl rfl rfl, addf_spread_eq_addRow, matmul_eq_mm dot_S5000x64_S64x64_S5000x64_1_0_0_1_n_n rfl rfl rfl rfl rfl rfl,
    addf_spread_eq_addRow, matmul_eq_mm dot_S5000x8_S8x64_S5000x64_1_0_0_1_n_n rfl rfl rfl rfl rfl rfl]
  rfl

/-- The block index maps over the grid: the row-blocked operand and the result move down one block of rows per point;
    every small operand stays at the origin. -/
theorem maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 20 :=
  (by decide +kernel : ∀ t : Fin grid0.N, _)

/-- The first weights' block at any point is the whole matrix. -/
theorem w1_blk (c : Dev nD) (t : Fin cfg0.N) : iblk0 V c 1 t = V c main_arg3 := by
  have e := maps t
  funext y
  show V c main_arg3 (((cfg0.win 1).blk t).view.emb y) = V c main_arg3 y
  refine congrArg _ (funext fun a => Fin.ext ?_)
  match a with
  | ⟨0, _⟩ => show win0_1.index t (0 : Fin 2) * 8 + 1 * (y 0).val = (y 0).val; omega
  | ⟨1, _⟩ => show win0_1.index t (1 : Fin 2) * 64 + 1 * (y 1).val = (y 1).val; omega

/-- The first bias row's block at any point is the whole row. -/
theorem b1_blk (c : Dev nD) (t : Fin cfg0.N) : iblk0 V c 2 t = V c main_v38 := by
  have e := maps t
  funext y
  show V c main_v38 (((cfg0.win 2).blk t).view.emb y) = V c main_v38 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The second weights' block at any point is the whole matrix. -/
theorem w2_blk (c : Dev nD) (t : Fin cfg0.N) : iblk0 V c 3 t = V c main_arg5 := by
  have e := maps t
  funext y
  show V c main_arg5 (((cfg0.win 3).blk t).view.emb y) = V c main_arg5 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The second bias row's block at any point is the whole row. -/
theorem b2_blk (c : Dev nD) (t : Fin cfg0.N) : iblk0 V c 4 t = V c main_v39 := by
  have e := maps t
  funext y
  show V c main_v39 (((cfg0.win 4).blk t).view.emb y) = V c main_v39 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The first layer's weights' block at any point is the whole matrix. -/
theorem w0_blk (c : Dev nD) (t : Fin cfg0.N) : iblk0 V c 5 t = V c main_v37 := by
  have e := maps t
  funext y
  show V c main_v37 (((cfg0.win 5).blk t).view.emb y) = V c main_v37 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- Row q of the row-blocked operand's block at point t is row 5000 t + q of that operand. -/
theorem feat_row (c : Dev nD) (t : Fin cfg0.N) (q : Fin 5000) (p : Fin 100000) (hp : p.val = t.val * 5000 + q.val) :
    RowEq (iblk0 V c 0 t : Mat 5000 8) q (V c main_arg0 : Mat 100000 8) p := fun j => by
  have e := maps t
  show V c main_arg0 (((cfg0.win 0).blk t).view.emb (ix2 q j)) = V c main_arg0 (ix2 p j)
  refine congrArg _ (funext fun a => Fin.ext ?_)
  match a with
  | ⟨0, _⟩ => show win0_0.index t (0 : Fin 2) * 5000 + 1 * q.val = p.val; omega
  | ⟨1, _⟩ => show win0_0.index t (1 : Fin 2) * 8 + 1 * j.val = j.val; omega

/-- What point t writes back is block t of the stage of the whole arrays. -/
theorem written_eq (c : Dev nD) (t : Fin cfg0.N) :
    (dat0 V c).flushed 6 t = ((cfg0.win 6).blk t).view.read (Elt Ideal)
      (encode (V c main_arg0) (V c main_arg3) (V c main_v38) (V c main_arg5) (V c main_v39) (V c main_v37)) := by
  show (cfg0.win 6).cut (grid0.coords t) ((dat0 V c).after 6 t) = _
  rw [after0_6]
  unfold out0_6
  rw [View.canon_unit_zero origin]
  simp only [View.ld_unit_zero (S := S5000x8) origin, View.ld_unit_zero (S := S8x64) origin, View.ld_unit_zero (S := S1x64) origin, View.ld_unit_zero (S := S64x64) origin]
  rw [stored_eq, w1_blk V c t, b1_blk V c t, w2_blk V c t, b2_blk V c t, w0_blk V c t]
  have e := maps t
  funext y
  obtain ⟨q, o, rfl⟩ : ∃ (q : Fin 5000) (o : Fin 64), y = ix2 q o := ⟨y 0, y 1, eq_ix2 y⟩
  have hq : q.val < 5000 := q.isLt
  have ho : o.val < 64 := o.isLt
  have hE : ((cfg0.win 6).blk t).view.emb (ix2 q o)
      = ix2 (⟨t.val * 5000 + q.val, by omega⟩ : Fin 100000) o := funext fun a => Fin.ext (by
    match a with
    | ⟨0, _⟩ => show win0_6.index t (0 : Fin 2) * 5000 + 1 * q.val = t.val * 5000 + q.val; omega
    | ⟨1, _⟩ => show win0_6.index t (1 : Fin 2) * 64 + 1 * o.val = o.val; omega)
  show encode (iblk0 V c 0 t) (V c main_arg3) (V c main_v38) (V c main_arg5) (V c main_v39) (V c main_v37) (ix2 q o)
    = encode (V c main_arg0) (V c main_arg3) (V c main_v38) (V c main_arg5) (V c main_v39) (V c main_v37) (((cfg0.win 6).blk t).view.emb (ix2 q o))
  rw [hE]
  exact encode_row (feat_row V c t q ⟨t.val * 5000 + q.val, by omega⟩ rfl) _ _ _ _ _ o

/-- An index of the result array lies in point t's block iff each coordinate lies in the block's range. -/
theorem mem_blk (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v40).slice (win0_6.rect t)).set ↔ _
  rw [View.set_slice_whole, Rect.mem_set_unit]
  exact Iff.rfl

/-- Every row lies in the block of the point (row / 5000). -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := (⟨(i 0).val / 5000, by omega⟩ : Fin 20)
  have e := maps t
  have ht : t.val = (i 0).val / 5000 := rfl
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 64 ≤ (i 1).val ∧ (i 1).val < win0_6.index t (1 : Fin 2) * 64 + 64
    omega

/-- The result array after the launch is the stage of the arrays the launch found. -/
theorem value (c : Dev nD) :
    (dat0 V c).arrAt 6 cfg0.N = encode (V c main_arg0) (V c main_arg3) (V c main_v38) (V c main_arg5) (V c main_v39) (V c main_v37) :=
  (dat0 V c).arrAt_eq_of_cover 6 _ (fun t _ => written_eq V c t) covered

end Cert.KernelIdeal.Region0

end
-- ==== Proof.Region1.lean ====
/-
  Launch 1 (a graph layer after its aggregation): the array it leaves is the layer of the arrays it finds.

  The launch walks the node matrix in 20 blocks of 5000 rows.  At grid point t it loads rows 5000 t … 5000 t + 4999 of
  the aggregated features and the whole of the bias row and of the weight matrix, and stores the layer of those
  (bias, floor, product with the weights) as rows 5000 t … 5000 t + 4999 of its result.  A layer works one row at a
  time, so the stored block is the same rows of the layer of the WHOLE aggregated matrix; and every row 0 … 99999 lies
  in the block of the point (row / 5000).  Hence the result array, once every point has written back, is the layer of
  the whole arrays as the launch found them, entry by entry, whatever those contents are.
-/
import proofs.«166639_j14147622273759_1_alg».proof.Proof.Gen.KernelIdeal.Frame
import proofs.«166639_j14147622273759_1_alg».proof.Proof.Dense

set_option maxRecDepth 16384

noncomputable section

namespace Cert.KernelIdeal.Region1

open Cert.KernelIdeal Cert.KernelIdeal.Gen Cert.Dense Cert.LibRowStages
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value is the layer of the three blocks it loaded: the casts to the same shape and the changes
    of float format change nothing, the sum with the spread bias row is `addRow`, the maximum with the zero splat the
    floor, the product into the zero accumulator the matrix product. -/
theorem stored_eq (x0 : Vec Ideal S5000x64 .f32) (x1 : Vec Ideal S1x64 .f32) (x2 : Vec Ideal S64x64 .f32) :
    k1_pay1 (F := Ideal) x0 x1 x2 = layer x0 x1 x2 := by
  unfold k1_pay1
  rw [shapeCast_self x0, shapeCast_self x1, shapeCast_self x2]
  show matmul (F := Ideal) (φ₁ := .bf16) (φ₂ := .bf16) dot_S5000x64_S64x64_S5000x64_1_0_0_1_n_n none
      (relu (addf (F := Ideal) (φ := .f32) x0 (broadcastTo S5000x64 x1 broadcasts_S1x64_S5000x64)))
      (x2 : FVec Ideal S64x64 .bf16) (constant S5000x64 .f32 0x00000000#32) = _
  rw [matmul_eq_mm dot_S5000x64_S64x64_S5000x64_1_0_0_1_n_n rfl rfl rfl rfl rfl rfl, addf_spread_eq_addRow]
  rfl

/-- The block index maps over the grid: the aggregated features and the result move down one block of rows per
    point; the bias row and the weights stay at the origin. -/
theorem maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 20 :=
  (by decide +kernel : ∀ t : Fin grid1.N, _)

/-- The bias row's block at any point is the whole row. -/
theorem bias_blk (c : Dev nD) (t : Fin cfg1.N) : iblk1 V c 1 t = V c main_v57 := by
  obtain ⟨-, -, e2, e3, -⟩ := maps t
  funext y
  show V c main_v57 (((cfg1.win 1).blk t).view.emb y) = V c main_v57 y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- The weights' block at any point is the whole matrix. -/
theorem weight_blk (c : Dev nD) (t : Fin cfg1.N) : iblk1 V c 2 t = V c main_v56 := by
  obtain ⟨-, -, -, -, e4, e5, -⟩ := maps t
  funext y
  show V c main_v56 (((cfg1.win 2).blk t).view.emb y) = V c main_v56 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Row q of the features' block at point t is row 5000 t + q of the features. -/
theorem feat_row (c : Dev nD) (t : Fin cfg1.N) (q : Fin 5000) (p : Fin 100000) (hp : p.val = t.val * 5000 + q.val) :
    RowEq (iblk1 V c 0 t : Mat 5000 64) q (V c main_v52 : Mat 100000 64) p := fun j => by
  obtain ⟨e0, e1, -⟩ := maps t
  show V c main_v52 (((cfg1.win 0).blk t).view.emb (ix2 q j)) = V c main_v52 (ix2 p j)
  refine congrArg _ (funext fun a => Fin.ext ?_)
  match a with
  | ⟨0, _⟩ => show win1_0.index t (0 : Fin 2) * 5000 + 1 * q.val = p.val; omega
  | ⟨1, _⟩ => show win1_0.index t (1 : Fin 2) * 64 + 1 * j.val = j.val; omega

/-- What point t writes back is block t of the layer of the whole arrays. -/
theorem written_eq (c : Dev nD) (t : Fin cfg1.N) :
    (dat1 V c).flushed 3 t = ((cfg1.win 3).blk t).view.read (Elt Ideal)
      (layer (V c main_v52) (V c main_v57) (V c main_v56)) := by
  show (cfg1.win 3).cut (grid1.coords t) ((dat1 V c).after 3 t) = _
  rw [after1_3]
  unfold out1_3
  rw [View.canon_unit_zero origin]
  simp only [View.ld_unit_zero (S := S5000x64) origin, View.ld_unit_zero (S := S1x64) origin,
    View.ld_unit_zero (S := S64x64) origin]
  rw [stored_eq, bias_blk V c t, weight_blk V c t]
  obtain ⟨-, -, -, -, -, -, e6, e7, ht⟩ := maps t
  funext y
  obtain ⟨q, o, rfl⟩ : ∃ (q : Fin 5000) (o : Fin 64), y = ix2 q o := ⟨y 0, y 1, eq_ix2 y⟩
  have hq : q.val < 5000 := q.isLt
  have hE : ((cfg1.win 3).blk t).view.emb (ix2 q o)
      = ix2 (⟨t.val * 5000 + q.val, by omega⟩ : Fin 100000) o := funext fun a => Fin.ext (by
    match a with
    | ⟨0, _⟩ => show win1_3.index t (0 : Fin 2) * 5000 + 1 * q.val = t.val * 5000 + q.val; omega
    | ⟨1, _⟩ => show win1_3.index t (1 : Fin 2) * 64 + 1 * o.val = o.val; omega)
  show layer (iblk1 V c 0 t) (V c main_v57) (V c main_v56) (ix2 q o)
    = layer (V c main_v52) (V c main_v57) (V c main_v56) (((cfg1.win 3).blk t).view.emb (ix2 q o))
  rw [hE]
  exact layer_row (feat_row V c t q ⟨t.val * 5000 + q.val, by omega⟩ rfl) _ _ o

/-- An index of the result array lies in point t's block iff each coordinate lies in the block's range. -/
theorem mem_blk (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v58).slice (win1_3.rect t)).set ↔ _
  rw [View.set_slice_whole, Rect.mem_set_unit]
  exact Iff.rfl

/-- Every row lies in the block of the point (row / 5000). -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := (⟨(i 0).val / 5000, by omega⟩ : Fin 20)
  obtain ⟨-, -, -, -, -, -, e6, e7, -⟩ := maps t
  have ht : t.val = (i 0).val / 5000 := rfl
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- The result array after the launch is the layer of the arrays the launch found. -/
theorem value (c : Dev nD) :
    (dat1 V c).arrAt 3 cfg1.N = layer (V c main_v52) (V c main_v57) (V c main_v56) :=
  (dat1 V c).arrAt_eq_of_cover 3 _ (fun t _ => written_eq V c t) covered

end Cert.KernelIdeal.Region1

end
-- ==== Proof.Region2.lean ====
/-
  Launch 2 (a graph layer after its aggregation): the array it leaves is the layer of the arrays it finds.

  The launch walks the node matrix in 20 blocks of 5000 rows.  At grid point t it loads rows 5000 t … 5000 t + 4999 of
  the aggregated features and the whole of the bias row and of the weight matrix, and stores the layer of those
  (bias, floor, product with the weights) as rows 5000 t … 5000 t + 4999 of its result.  A layer works one row at a
  time, so the stored block is the same rows of the layer of the WHOLE aggregated matrix; and every row 0 … 99999 lies
  in the block of the point (row / 5000).  Hence the result array, once every point has written back, is the layer of
  the whole arrays as the launch found them, entry by entry, whatever those contents are.
-/
import proofs.«166639_j14147622273759_1_alg».proof.Proof.Gen.KernelIdeal.Frame
import proofs.«166639_j14147622273759_1_alg».proof.Proof.Dense

set_option maxRecDepth 16384

noncomputable section

namespace Cert.KernelIdeal.Region2

open Cert.KernelIdeal Cert.KernelIdeal.Gen Cert.Dense Cert.LibRowStages
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value is the layer of the three blocks it loaded: the casts to the same shape and the changes
    of float format change nothing, the sum with the spread bias row is `addRow`, the maximum with the zero splat the
    floor, the product into the zero accumulator the matrix product. -/
theorem stored_eq (x0 : Vec Ideal S5000x64 .f32) (x1 : Vec Ideal S1x64 .f32) (x2 : Vec Ideal S64x64 .f32) :
    k2_pay1 (F := Ideal) x0 x1 x2 = layer x0 x1 x2 := by
  unfold k2_pay1
  rw [shapeCast_self x0, shapeCast_self x1, shapeCast_self x2]
  show matmul (F := Ideal) (φ₁ := .bf16) (φ₂ := .bf16) dot_S5000x64_S64x64_S5000x64_1_0_0_1_n_n none
      (relu (addf (F := Ideal) (φ := .f32) x0 (broadcastTo S5000x64 x1 broadcasts_S1x64_S5000x64)))
      (x2 : FVec Ideal S64x64 .bf16) (constant S5000x64 .f32 0x00000000#32) = _
  rw [matmul_eq_mm dot_S5000x64_S64x64_S5000x64_1_0_0_1_n_n rfl rfl rfl rfl rfl rfl, addf_spread_eq_addRow]
  rfl

/-- The block index maps over the grid: the aggregated features and the result move down one block of rows per
    point; the bias row and the weights stay at the origin. -/
theorem maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 20 :=
  (by decide +kernel : ∀ t : Fin grid2.N, _)

/-- The bias row's block at any point is the whole row. -/
theorem bias_blk (c : Dev nD) (t : Fin cfg2.N) : iblk2 V c 1 t = V c main_v75 := by
  obtain ⟨-, -, e2, e3, -⟩ := maps t
  funext y
  show V c main_v75 (((cfg2.win 1).blk t).view.emb y) = V c main_v75 y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 64 + 1 * (y 1).val = (y 1).val; omega

/-- The weights' block at any point is the whole matrix. -/
theorem weight_blk (c : Dev nD) (t : Fin cfg2.N) : iblk2 V c 2 t = V c main_v74 := by
  obtain ⟨-, -, -, -, e4, e5, -⟩ := maps t
  funext y
  show V c main_v74 (((cfg2.win 2).blk t).view.emb y) = V c main_v74 y
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Row q of the features' block at point t is row 5000 t + q of the features. -/
theorem feat_row (c : Dev nD) (t : Fin cfg2.N) (q : Fin 5000) (p : Fin 100000) (hp : p.val = t.val * 5000 + q.val) :
    RowEq (iblk2 V c 0 t : Mat 5000 64) q (V c main_v70 : Mat 100000 64) p := fun j => by
  obtain ⟨e0, e1, -⟩ := maps t
  show V c main_v70 (((cfg2.win 0).blk t).view.emb (ix2 q j)) = V c main_v70 (ix2 p j)
  refine congrArg _ (funext fun a => Fin.ext ?_)
  match a with
  | ⟨0, _⟩ => show win2_0.index t (0 : Fin 2) * 5000 + 1 * q.val = p.val; omega
  | ⟨1, _⟩ => show win2_0.index t (1 : Fin 2) * 64 + 1 * j.val = j.val; omega

/-- What point t writes back is block t of the layer of the whole arrays. -/
theorem written_eq (c : Dev nD) (t : Fin cfg2.N) :
    (dat2 V c).flushed 3 t = ((cfg2.win 3).blk t).view.read (Elt Ideal)
      (layer (V c main_v70) (V c main_v75) (V c main_v74)) := by
  show (cfg2.win 3).cut (grid2.coords t) ((dat2 V c).after 3 t) = _
  rw [after2_3]
  unfold out2_3
  rw [View.canon_unit_zero origin]
  simp only [View.ld_unit_zero (S := S5000x64) origin, View.ld_unit_zero (S := S1x64) origin,
    View.ld_unit_zero (S := S64x64) origin]
  rw [stored_eq, bias_blk V c t, weight_blk V c t]
  obtain ⟨-, -, -, -, -, -, e6, e7, ht⟩ := maps t
  funext y
  obtain ⟨q, o, rfl⟩ : ∃ (q : Fin 5000) (o : Fin 64), y = ix2 q o := ⟨y 0, y 1, eq_ix2 y⟩
  have hq : q.val < 5000 := q.isLt
  have hE : ((cfg2.win 3).blk t).view.emb (ix2 q o)
      = ix2 (⟨t.val * 5000 + q.val, by omega⟩ : Fin 100000) o := funext fun a => Fin.ext (by
    match a with
    | ⟨0, _⟩ => show win2_3.index t (0 : Fin 2) * 5000 + 1 * q.val = t.val * 5000 + q.val; omega
    | ⟨1, _⟩ => show win2_3.index t (1 : Fin 2) * 64 + 1 * o.val = o.val; omega)
  show layer (iblk2 V c 0 t) (V c main_v75) (V c main_v74) (ix2 q o)
    = layer (V c main_v70) (V c main_v75) (V c main_v74) (((cfg2.win 3).blk t).view.emb (ix2 q o))
  rw [hE]
  exact layer_row (feat_row V c t q ⟨t.val * 5000 + q.val, by omega⟩ rfl) _ _ o

/-- An index of the result array lies in point t's block iff each coordinate lies in the block's range. -/
theorem mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v76).slice (win2_3.rect t)).set ↔ _
  rw [View.set_slice_whole, Rect.mem_set_unit]
  exact Iff.rfl

/-- Every row lies in the block of the point (row / 5000). -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := (⟨(i 0).val / 5000, by omega⟩ : Fin 20)
  obtain ⟨-, -, -, -, -, -, e6, e7, -⟩ := maps t
  have ht : t.val = (i 0).val / 5000 := rfl
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 64 ≤ (i 1).val ∧ (i 1).val < win2_3.index t (1 : Fin 2) * 64 + 64
    omega

/-- The result array after the launch is the layer of the arrays the launch found. -/
theorem value (c : Dev nD) :
    (dat2 V c).arrAt 3 cfg2.N = layer (V c main_v70) (V c main_v75) (V c main_v74) :=
  (dat2 V c).arrAt_eq_of_cover 3 _ (fun t _ => written_eq V c t) covered

end Cert.KernelIdeal.Region2

end
-- ==== Proof.Region3.lean ====
/-
  Launch 3 (a graph layer after its aggregation): the array it leaves is the layer of the arrays it finds.

  The launch walks the node matrix in 20 blocks of 5000 rows.  At grid point t it loads rows 5000 t … 5000 t + 4999 of
  the aggregated features and the whole of the bias row and of the weight matrix, and stores the layer of those
  (bias, floor, product with the weights) as rows 5000 t … 5000 t + 4999 of its result.  A layer works one row at a
  time, so the stored block is the same rows of the layer of the WHOLE aggregated matrix; and every row 0 … 99999 lies
  in the block of the point (row / 5000).  Hence the result array, once every point has written back, is the layer of
  the whole arrays as the launch found them, entry by entry, whatever those contents are.
-/
import proofs.«166639_j14147622273759_1_alg».proof.Proof.Gen.KernelIdeal.Frame
import proofs.«166639_j14147622273759_1_alg».proof.Proof.Dense

set_option maxRecDepth 16384

noncomputable section

namespace Cert.KernelIdeal.Region3

open Cert.KernelIdeal Cert.KernelIdeal.Gen Cert.Dense Cert.LibRowStages
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value is the layer of the three blocks it loaded: the casts to the same shape and the changes
    of float format change nothing, the sum with the spread bias row is `addRow`, the maximum with the zero splat the
    floor, the product into the zero accumulator the matrix product. -/
theorem stored_eq (x0 : Vec Ideal S5000x64 .f32) (x1 : Vec Ideal S1x64 .f32) (x2 : Vec Ideal S64x64 .f32) :
    k3_pay1 (F := Ideal) x0 x1 x2 = layer x0 x1 x2 := by
  unfold k3_pay1
  rw [shapeCast_self x0, shapeCast_self x1, shapeCast_self x2]
  show matmul (F := Ideal) (φ₁ := .bf16) (φ₂ := .bf16) dot_S5000x64_S64x64_S5000x64_1_0_0_1_n_n none
      (relu (addf (F := Ideal) (φ := .f32) x0 (broadcastTo S5000x64 x1 broadcasts_S1x64_S5000x64)))
      (x2 : FVec Ideal S64x64 .bf16) (constant S5000x64 .f32 0x00000000#32) = _
  rw [matmul_eq_mm dot_S5000x64_S64x64_S5000x64_1_0_0_1_n_n rfl rfl rfl rfl rfl rfl, addf_spread_eq_addRow]
  rfl

/-- The block index maps over the grid: the aggregated features and the result move down one block of rows per
    point; the bias row and the weights stay at the origin. -/
theorem maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 20 :=
  (by decide +kernel : ∀ t : Fin grid3.N, _)

/-- The bias row's block at any point is the whole row. -/
theorem bias_blk (c : Dev nD) (t : Fin cfg3.N) : iblk3 V c 1 t = V c main_v93 := by
  obtain ⟨-, -, e2, e3, -⟩ := maps t
  funext y
  show V c main_v93 (((cfg3.win 1).blk t).view.emb y) = V c main_v93 y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- The weights' block at any point is the whole matrix. -/
theorem weight_blk (c : Dev nD) (t : Fin cfg3.N) : iblk3 V c 2 t = V c main_v92 := by
  obtain ⟨-, -, -, -, e4, e5, -⟩ := maps t
  funext y
  show V c main_v92 (((cfg3.win 2).blk t).view.emb y) = V c main_v92 y
  refine congrArg _ (funext fun a => Fin.ext ?_)
  match a with
  | ⟨0, _⟩ => show win3_2.index t (0 : Fin 2) * 64 + 1 * (y 0).val = (y 0).val; omega
  | ⟨1, _⟩ => show win3_2.index t (1 : Fin 2) * 64 + 1 * (y 1).val = (y 1).val; omega

/-- Row q of the features' block at point t is row 5000 t + q of the features. -/
theorem feat_row (c : Dev nD) (t : Fin cfg3.N) (q : Fin 5000) (p : Fin 100000) (hp : p.val = t.val * 5000 + q.val) :
    RowEq (iblk3 V c 0 t : Mat 5000 64) q (V c main_v88 : Mat 100000 64) p := fun j => by
  obtain ⟨e0, e1, -⟩ := maps t
  show V c main_v88 (((cfg3.win 0).blk t).view.emb (ix2 q j)) = V c main_v88 (ix2 p j)
  refine congrArg _ (funext fun a => Fin.ext ?_)
  match a with
  | ⟨0, _⟩ => show win3_0.index t (0 : Fin 2) * 5000 + 1 * q.val = p.val; omega
  | ⟨1, _⟩ => show win3_0.index t (1 : Fin 2) * 64 + 1 * j.val = j.val; omega

/-- What point t writes back is block t of the layer of the whole arrays. -/
theorem written_eq (c : Dev nD) (t : Fin cfg3.N) :
    (dat3 V c).flushed 3 t = ((cfg3.win 3).blk t).view.read (Elt Ideal)
      (layer (V c main_v88) (V c main_v93) (V c main_v92)) := by
  show (cfg3.win 3).cut (grid3.coords t) ((dat3 V c).after 3 t) = _
  rw [after3_3]
  unfold out3_3
  rw [View.canon_unit_zero origin]
  simp only [View.ld_unit_zero (S := S5000x64) origin, View.ld_unit_zero (S := S1x64) origin,
    View.ld_unit_zero (S := S64x64) origin]
  rw [stored_eq, bias_blk V c t, weight_blk V c t]
  obtain ⟨-, -, -, -, -, -, e6, e7, ht⟩ := maps t
  funext y
  obtain ⟨q, o, rfl⟩ : ∃ (q : Fin 5000) (o : Fin 64), y = ix2 q o := ⟨y 0, y 1, eq_ix2 y⟩
  have hq : q.val < 5000 := q.isLt
  have hE : ((cfg3.win 3).blk t).view.emb (ix2 q o)
      = ix2 (⟨t.val * 5000 + q.val, by omega⟩ : Fin 100000) o := funext fun a => Fin.ext (by
    match a with
    | ⟨0, _⟩ => show win3_3.index t (0 : Fin 2) * 5000 + 1 * q.val = t.val * 5000 + q.val; omega
    | ⟨1, _⟩ => show win3_3.index t (1 : Fin 2) * 64 + 1 * o.val = o.val; omega)
  show layer (iblk3 V c 0 t) (V c main_v93) (V c main_v92) (ix2 q o)
    = layer (V c main_v88) (V c main_v93) (V c main_v92) (((cfg3.win 3).blk t).view.emb (ix2 q o))
  rw [hE]
  exact layer_row (feat_row V c t q ⟨t.val * 5000 + q.val, by omega⟩ rfl) _ _ o

/-- An index of the result array lies in point t's block iff each coordinate lies in the block's range. -/
theorem mem_blk (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v94).slice (win3_3.rect t)).set ↔ _
  rw [View.set_slice_whole, Rect.mem_set_unit]
  exact Iff.rfl

/-- Every row lies in the block of the point (row / 5000). -/
theorem covered (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  let t : Fin cfg3.N := (⟨(i 0).val / 5000, by omega⟩ : Fin 20)
  obtain ⟨-, -, -, -, -, -, e6, e7, -⟩ := maps t
  have ht : t.val = (i 0).val / 5000 := rfl
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 64 ≤ (i 1).val ∧ (i 1).val < win3_3.index t (1 : Fin 2) * 64 + 64
    omega

/-- The result array after the launch is the layer of the arrays the launch found. -/
theorem value (c : Dev nD) :
    (dat3 V c).arrAt 3 cfg3.N = layer (V c main_v88) (V c main_v93) (V c main_v92) :=
  (dat3 V c).arrAt_eq_of_cover 3 _ (fun t _ => written_eq V c t) covered

end Cert.KernelIdeal.Region3

end
-- ==== Proof.Region4.lean ====
/-
  Launch 4 (the last graph layer's bias and floor, then the decoder): the array it leaves is that stage of the arrays it finds.

  The launch walks the aggregated node matrix in 20 blocks of 5000 rows.  At grid point t it loads rows 5000 t … 5000 t + 4999
  of it and the whole of the five small operands (the last layer's bias row, the decoder's two weight matrices with their
  bias rows), and stores the stage of those, one column wide, as the same rows of its result.  Each of the stage's
  operations works one row at a time, so the stored block is the same rows of the stage of the WHOLE aggregated matrix;
  every row 0 … 99999 lies in the block of the point (row / 5000).  Hence the result array is the stage of the whole arrays
  as the launch found them, entry by entry, whatever those contents are.
-/
import proofs.«166639_j14147622273759_1_alg».proof.Proof.Gen.KernelIdeal.Frame
import proofs.«166639_j14147622273759_1_alg».proof.Proof.Dense

set_option maxRecDepth 16384

noncomputable section

namespace Cert.KernelIdeal.Region4

open Cert.KernelIdeal Cert.KernelIdeal.Gen Cert.Dense Cert.LibRowStages
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value is the stage of the six blocks it loaded: the casts to the same shape and the changes of
    float format change nothing, each sum with a spread bias row is `addRow`, each maximum with the zero splat the floor,
    each product into the zero accumulator the matrix product. -/
theorem stored_eq (x0 : Vec Ideal S5000x64 .f32) (x1 : Vec Ideal S1x64 .f32) (x2 : Vec Ideal S64x64 .f32)
    (x3 : Vec Ideal S1x64 .f32) (x4 : Vec Ideal S64x1 .f32) (x5 : Vec Ideal S1x1 .f32) :
    k4_pay1 (F := Ideal) x0 x1 x2 x3 x4 x5 = decode x0 x1 x2 x3 x4 x5 := by
  unfold k4_pay1
  rw [shapeCast_self x0, shapeCast_self x1, shapeCast_self x3, shapeCast_self x5]
  show addf (F := Ideal) (φ := .f32)
      (matmul (F := Ideal) (φ₁ := .bf16) (φ₂ := .bf16) dot_S5000x64_S64x1_S5000x1_1_0_0_1_n_n none
        (relu (addf (F := Ideal) (φ := .f32)
          (matmul (F := Ideal) (φ₁ := .bf16) (φ₂ := .bf16) dot_S5000x64_S64x64_S5000x64_1_0_0_1_n_n none
            (relu (addf (F := Ideal) (φ := .f32) x0 (broadcastTo S5000x64 x1 broadcasts_S1x64_S5000x64)))
            (x2 : FVec Ideal S64x64 .bf16) (constant S5000x64 .f32 0x00000000#32))
          (broadcastTo S5000x64 x3 broadcasts_S1x64_S5000x64)))
        (x4 : FVec Ideal S64x1 .bf16) (constant S5000x1 .f32 0x00000000#32))
      (broadcastTo S5000x1 x5 broadcasts_S1x1_S5000x1) = _
  rw [addf_spread_eq_addRow, matmul_eq_mm dot_S5000x64_S64x1_S5000x1_1_0_0_1_n_n rfl rfl rfl rfl rfl rfl, addf_spread_eq_addRow,
    matmul_eq_mm dot_S5000x64_S64x64_S5000x64_1_0_0_1_n_n rfl rfl rfl rfl rfl rfl, addf_spread_eq_addRow]
  rfl

/-- The block index maps over the grid: the row-blocked operand and the result move down one block of rows per point;
    every small operand stays at the origin. -/
theorem maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 ∧ t.val < 20 :=
  (by decide +kernel : ∀ t : Fin grid4.N, _)

/-- The layer's bias row's block at any point is the whole row. -/
theorem b3_blk (c : Dev nD) (t : Fin cfg4.N) : iblk4 V c 1 t = V c main_v109 := by
  have e := maps t
  funext y
  show V c main_v109 (((cfg4.win 1).blk t).view.emb y) = V c main_v109 y
  refine congrArg _ (funext fun a => Fin.ext ?_)
  match a with
  | ⟨0, _⟩ => show win4_1.index t (0 : Fin 2) * 1 + 1 * (y 0).val = (y 0).val; omega
  | ⟨1, _⟩ => show win4_1.index t (1 : Fin 2) * 64 + 1 * (y 1).val = (y 1).val; omega

/-- The first weights' block at any point is the whole matrix. -/
theorem w1_blk (c : Dev nD) (t : Fin cfg4.N) : iblk4 V c 2 t = V c main_arg9 := by
  have e := maps t
  funext y
  show V c main_arg9 (((cfg4.win 2).blk t).view.emb y) = V c main_arg9 y
  refine congrArg _ (funext fun a => Fin.ext ?_)
  match a with
  | ⟨0, _⟩ => show win4_2.index t (0 : Fin 2) * 64 + 1 * (y 0).val = (y 0).val; omega
  | ⟨1, _⟩ => show win4_2.index t (1 : Fin 2) * 64 + 1 * (y 1).val = (y 1).val; omega

/-- The first bias row's block at any point is the whole row. -/
theorem b1_blk (c : Dev nD) (t : Fin cfg4.N) : iblk4 V c 3 t = V c main_v110 := by
  have e := maps t
  funext y
  show V c main_v110 (((cfg4.win 3).blk t).view.emb y) = V c main_v110 y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega

/-- The second weights' block at any point is the whole column. -/
theorem w2_blk (c : Dev nD) (t : Fin cfg4.N) : iblk4 V c 4 t = V c main_arg11 := by
  have e := maps t
  funext y
  show V c main_arg11 (((cfg4.win 4).blk t).view.emb y) = V c main_arg11 y
  refine congrArg _ (funext fun a => Fin.ext ?_)
  match a with
  | ⟨0, _⟩ => show win4_4.index t (0 : Fin 2) * 64 + 1 * (y 0).val = (y 0).val; omega
  | ⟨1, _⟩ => show win4_4.index t (1 : Fin 2) * 1 + 1 * (y 1).val = (y 1).val; omega

/-- The last bias's block at any point is its one entry. -/
theorem b2_blk (c : Dev nD) (t : Fin cfg4.N) : iblk4 V c 5 t = V c main_v111 := by
  have e := maps t
  funext y
  show V c main_v111 (((cfg4.win 5).blk t).view.emb y) = V c main_v111 y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 1 + 1 * (y 1).val = (y 1).val; omega

/-- Row q of the row-blocked operand's block at point t is row 5000 t + q of that operand. -/
theorem feat_row (c : Dev nD) (t : Fin cfg4.N) (q : Fin 5000) (p : Fin 100000) (hp : p.val = t.val * 5000 + q.val) :
    RowEq (iblk4 V c 0 t : Mat 5000 64) q (V c main_v106 : Mat 100000 64) p := fun j => by
  have e := maps t
  show V c main_v106 (((cfg4.win 0).blk t).view.emb (ix2 q j)) = V c main_v106 (ix2 p j)
  refine congrArg _ (funext fun a => Fin.ext ?_)
  match a with
  | ⟨0, _⟩ => show win4_0.index t (0 : Fin 2) * 5000 + 1 * q.val = p.val; omega
  | ⟨1, _⟩ => show win4_0.index t (1 : Fin 2) * 64 + 1 * j.val = j.val; omega

/-- What point t writes back is block t of the stage of the whole arrays. -/
theorem written_eq (c : Dev nD) (t : Fin cfg4.N) :
    (dat4 V c).flushed 6 t = ((cfg4.win 6).blk t).view.read (Elt Ideal)
      (decode (V c main_v106) (V c main_v109) (V c main_arg9) (V c main_v110) (V c main_arg11) (V c main_v111)) := by
  show (cfg4.win 6).cut (grid4.coords t) ((dat4 V c).after 6 t) = _
  rw [after4_6]
  unfold out4_6
  rw [View.canon_unit_zero origin]
  simp only [View.ld_unit_zero (S := S5000x64) origin, View.ld_unit_zero (S := S1x64) origin, View.ld_unit_zero (S := S64x64) origin, View.ld_unit_zero (S := S64x1) origin, View.ld_unit_zero (S := S1x1) origin]
  rw [stored_eq, b3_blk V c t, w1_blk V c t, b1_blk V c t, w2_blk V c t, b2_blk V c t]
  have e := maps t
  funext y
  obtain ⟨q, o, rfl⟩ : ∃ (q : Fin 5000) (o : Fin 1), y = ix2 q o := ⟨y 0, y 1, eq_ix2 y⟩
  have hq : q.val < 5000 := q.isLt
  have ho : o.val < 1 := o.isLt
  have hE : ((cfg4.win 6).blk t).view.emb (ix2 q o)
      = ix2 (⟨t.val * 5000 + q.val, by omega⟩ : Fin 100000) o := funext fun a => Fin.ext (by
    match a with
    | ⟨0, _⟩ => show win4_6.index t (0 : Fin 2) * 5000 + 1 * q.val = t.val * 5000 + q.val; omega
    | ⟨1, _⟩ => show win4_6.index t (1 : Fin 2) * 1 + 1 * o.val = o.val; omega)
  show decode (iblk4 V c 0 t) (V c main_v109) (V c main_arg9) (V c main_v110) (V c main_arg11) (V c main_v111) (ix2 q o)
    = decode (V c main_v106) (V c main_v109) (V c main_arg9) (V c main_v110) (V c main_arg11) (V c main_v111) (((cfg4.win 6).blk t).view.emb (ix2 q o))
  rw [hE]
  exact decode_row (feat_row V c t q ⟨t.val * 5000 + q.val, by omega⟩ rfl) _ _ _ _ _ o

/-- An index of the result array lies in point t's block iff each coordinate lies in the block's range. -/
theorem mem_blk (t : Fin cfg4.N) (i : S100000x1.Idx) :
    i ∈ ((cfg4.win 6).blk t).view.set ↔ ∀ a : Fin 2, win4_6.index t a * S5000x1.size a ≤ (i a).val
      ∧ (i a).val < win4_6.index t a * S5000x1.size a + S5000x1.size a := by
  show i ∈ ((View.whole main_v112).slice (win4_6.rect t)).set ↔ _
  rw [View.set_slice_whole, Rect.mem_set_unit]
  exact Iff.rfl

/-- Every row lies in the block of the point (row / 5000). -/
theorem covered (i : S100000x1.Idx) :
    ∃ t : Fin cfg4.N, (cfg4.win 6).flush t = true ∧ i ∈ ((cfg4.win 6).blk t).view.set := by
  have hi0 : (i 0).val < 100000 := (i 0).isLt
  have hi1 : (i 1).val < 1 := (i 1).isLt
  let t : Fin cfg4.N := (⟨(i 0).val / 5000, by omega⟩ : Fin 20)
  have e := maps t
  have ht : t.val = (i 0).val / 5000 := rfl
  refine ⟨t, flush4_6 t, ?_⟩
  rw [mem_blk]
  intro a
  match a with
  | ⟨0, _⟩ =>
    show win4_6.index t (0 : Fin 2) * 5000 ≤ (i 0).val ∧ (i 0).val < win4_6.index t (0 : Fin 2) * 5000 + 5000
    omega
  | ⟨1, _⟩ =>
    show win4_6.index t (1 : Fin 2) * 1 ≤ (i 1).val ∧ (i 1).val < win4_6.index t (1 : Fin 2) * 1 + 1
    omega

/-- The result array after the launch is the stage of the arrays the launch found. -/
theorem value (c : Dev nD) :
    (dat4 V c).arrAt 6 cfg4.N = decode (V c main_v106) (V c main_v109) (V c main_arg9) (V c main_v110) (V c main_arg11) (V c main_v111) :=
  (dat4 V c).arrAt_eq_of_cover 6 _ (fun t _ => written_eq V c t) covered

end Cert.KernelIdeal.Region4

end
-- ==== Proof.RefStages.lean ====
/-
  The reference program's dense stages are the same three compositions.

  The reference computes the encoder, the four graph layers and the decoder on whole [100000, ·] matrices: each linear
  map is a contraction of a matrix's columns with a weight matrix's rows (the matrix product), each bias is a vector
  placed as a row and spread over the rows (`addRow` of the vector reshaped to a row), each rectifier a maximum against
  the zero word spread from a scalar (the floor).  Read operation by operation, the value after the first layer's
  linear map is `encode` of the arguments; the value after each later linear map is `layer` of the aggregation before
  it; and the result is `decode` of the last aggregation.  What lies between two such stages (the normalised gather,
  weight and scatter-add over the edges) is left as the reference states it.
-/
import proofs.«166639_j14147622273759_1_alg».proof.Proof.Gen.ReferenceIdeal.Read
import proofs.«166639_j14147622273759_1_alg».proof.Proof.Dense

noncomputable section

namespace Cert.ReferenceIdeal.Stages

open Cert.ReferenceIdeal Cert.ReferenceIdeal.Read Cert.Dense Cert.LibRowStages
open Idealize.ShloMosaic Idealize.ShloMosaic.TcCoe Idealize.ShloMosaic.ValueIdx

variable (x0 : (⟨S100000x8, .f32⟩ : BufTy).Contents (Elt Ideal)) (x1 : (⟨S2x1600000, .i32⟩ : BufTy).Contents (Elt Ideal))
  (x2 : (⟨S1600000, .f32⟩ : BufTy).Contents (Elt Ideal)) (x3 : (⟨S8x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S4x64x64, .f32⟩ : BufTy).Contents (Elt Ideal))
  (x8 : (⟨S4x64, .f32⟩ : BufTy).Contents (Elt Ideal)) (x9 : (⟨S64x64, .f32⟩ : BufTy).Contents (Elt Ideal))
  (x10 : (⟨S64, .f32⟩ : BufTy).Contents (Elt Ideal)) (x11 : (⟨S64x1, .f32⟩ : BufTy).Contents (Elt Ideal))
  (x12 : (⟨S1, .f32⟩ : BufTy).Contents (Elt Ideal))
  (hc : S64.ShapeCasts S1x64) (hc1 : S1.ShapeCasts S1x1)

/-- After the first layer's linear map the reference holds the encoder stage of its arguments. -/
theorem encode_eq : val_main_v46 (F := Ideal) x0 x3 x4 x5 x6 x7
    = encode x0 x3 (shapeCast S1x64 x4 hc) x5 (shapeCast S1x64 x6 hc) (val_main_v45 (F := Ideal) x7) := by
  unfold val_main_v46 val_main_v43 val_main_v42 val_main_v41 val_main_v40 val_main_v39 val_main_call2_v0 val_main_call2_cst
    val_main_v38 val_main_v37 val_main_v36 val_main_v35
  rw [dotGeneral_eq_mm dot_S100000x64_S64x64_S100000x64_1_0_0_1_n_n rfl rfl rfl rfl rfl rfl, addf_hostBias_eq_addRow _ _ hc, dotGeneral_eq_mm dot_S100000x64_S64x64_S100000x64_1_0_0_1_n_n rfl rfl rfl rfl rfl rfl,
    maximumf_hostZero_eq_relu, addf_hostBias_eq_addRow _ _ hc, dotGeneral_eq_mm dot_S100000x8_S8x64_S100000x64_1_0_0_1_n_n rfl rfl rfl rfl rfl rfl]
  rfl

/-- After the second layer's linear map: the layer of the first aggregation. -/
theorem layer1_eq : val_main_v68 (F := Ideal) x0 x1 x2 x3 x4 x5 x6 x7 x8
    = layer (val_main_v59 (F := Ideal) x0 x1 x2 x3 x4 x5 x6 x7) (shapeCast S1x64 (val_main_v61 (F := Ideal) x8) hc) (val_main_v67 (F := Ideal) x7) := by
  unfold val_main_v68 val_main_v65 val_main_call3_v0 val_main_call3_cst val_main_v64 val_main_v63 val_main_v62
  rw [dotGeneral_eq_mm dot_S100000x64_S64x64_S100000x64_1_0_0_1_n_n rfl rfl rfl rfl rfl rfl, maximumf_hostZero_eq_relu, addf_hostBias_eq_addRow _ _ hc]
  rfl

/-- After the third layer's linear map: the layer of the second aggregation. -/
theorem layer2_eq : val_main_v90 (F := Ideal) x0 x1 x2 x3 x4 x5 x6 x7 x8
    = layer (val_main_v81 (F := Ideal) x0 x1 x2 x3 x4 x5 x6 x7 x8) (shapeCast S1x64 (val_main_v83 (F := Ideal) x8) hc) (val_main_v89 (F := Ideal) x7) := by
  unfold val_main_v90 val_main_v87 val_main_call4_v0 val_main_call4_cst val_main_v86 val_main_v85 val_main_v84
  rw [dotGeneral_eq_mm dot_S100000x64_S64x64_S100000x64_1_0_0_1_n_n rfl rfl rfl rfl rfl rfl, maximumf_hostZero_eq_relu, addf_hostBias_eq_addRow _ _ hc]
  rfl

/-- After the fourth layer's linear map: the layer of the third aggregation. -/
theorem layer3_eq : val_main_v112 (F := Ideal) x0 x1 x2 x3 x4 x5 x6 x7 x8
    = layer (val_main_v103 (F := Ideal) x0 x1 x2 x3 x4 x5 x6 x7 x8) (shapeCast S1x64 (val_main_v105 (F := Ideal) x8) hc) (val_main_v111 (F := Ideal) x7) := by
  unfold val_main_v112 val_main_v109 val_main_call5_v0 val_main_call5_cst val_main_v108 val_main_v107 val_main_v106
  rw [dotGeneral_eq_mm dot_S100000x64_S64x64_S100000x64_1_0_0_1_n_n rfl rfl rfl rfl rfl rfl, maximumf_hostZero_eq_relu, addf_hostBias_eq_addRow _ _ hc]
  rfl

/-- The reference's result: the decoder stage of the fourth aggregation. -/
theorem decode_eq : val_main_v140 (F := Ideal) x0 x1 x2 x3 x4 x5 x6 x7 x8 x9 x10 x11 x12
    = decode (val_main_v125 (F := Ideal) x0 x1 x2 x3 x4 x5 x6 x7 x8) (shapeCast S1x64 (val_main_v127 (F := Ideal) x8) hc) x9
        (shapeCast S1x64 x10 hc) x11 (shapeCast S1x1 x12 hc1) := by
  unfold val_main_v140 val_main_v139 val_main_v138 val_main_v137 val_main_v136 val_main_call7_v0 val_main_call7_cst
    val_main_v135 val_main_v134 val_main_v133 val_main_v132 val_main_v131 val_main_call6_v0 val_main_call6_cst
    val_main_v130 val_main_v129 val_main_v128
  rw [addf_hostBias_eq_addRow _ _ hc1, dotGeneral_eq_mm dot_S100000x64_S64x1_S100000x1_1_0_0_1_n_n rfl rfl rfl rfl rfl rfl, maximumf_hostZero_eq_relu,
    addf_hostBias_eq_addRow _ _ hc, dotGeneral_eq_mm dot_S100000x64_S64x64_S100000x64_1_0_0_1_n_n rfl rfl rfl rfl rfl rfl, maximumf_hostZero_eq_relu,
    addf_hostBias_eq_addRow _ _ hc]
  rfl

end Cert.ReferenceIdeal.Stages

end
-- ==== Proof.WalkHost.lean ====
/-
  The stretches of host operations between the launches, read at the buffers the next launch takes.

  Between two launches the program gathers the rows of the last launch's result at the edges' source nodes, weights each
  by its edge's norm, scatter-adds them at the edges' target nodes, and slices the next layer's bias and weights out of
  the stacked arguments.  The reference does the same operations, on the same operands, between its dense stages.  So
  for ANY contents of the buffers at the stretch's start: if the edge arrays (sources, targets, norms) hold the
  reference's values and the last launch's result holds the reference's value of that stage, then the aggregation the
  stretch leaves is the reference's aggregation: the two terms are the same operations applied to equal operands, and
  nothing inside the gather, the weighting or the scatter-add is opened.  The bias row is the layer's bias vector
  reshaped to a row, the weight matrix the layer's slice of the stacked weights; a buffer the stretch does not write
  keeps its contents.
-/
import proofs.«166639_j14147622273759_1_alg».proof.Proof.Gen.KernelIdeal.Frame
import proofs.«166639_j14147622273759_1_alg».proof.Proof.Gen.ReferenceIdeal.Read

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem

/-! ## The first stretch of glue (after launch 0) -/

set_option maxHeartbeats 4000000 in
/-- Its aggregation is the reference's, when the boundary holds the reference's edge arrays and the reference's value
    of the launch's result: the same gather of rows at the source nodes, weighting by the edge norms and scatter-add at
    the target nodes, operation for operation. -/
theorem agg1 (Wp : Valuation τ sig (Elt Ideal)) (a0 : (⟨Cert.ReferenceIdeal.S100000x8, .f32⟩ : BufTy).Contents (Elt Ideal)) (a1 : (⟨Cert.ReferenceIdeal.S2x1600000, .i32⟩ : BufTy).Contents (Elt Ideal))
    (a2 : (⟨Cert.ReferenceIdeal.S1600000, .f32⟩ : BufTy).Contents (Elt Ideal)) (a3 : (⟨Cert.ReferenceIdeal.S8x64, .f32⟩ : BufTy).Contents (Elt Ideal))
    (a4 : (⟨Cert.ReferenceIdeal.S64, .f32⟩ : BufTy).Contents (Elt Ideal)) (a5 : (⟨Cert.ReferenceIdeal.S64x64, .f32⟩ : BufTy).Contents (Elt Ideal))
    (a6 : (⟨Cert.ReferenceIdeal.S64, .f32⟩ : BufTy).Contents (Elt Ideal)) (a7 : (⟨Cert.ReferenceIdeal.S4x64x64, .f32⟩ : BufTy).Contents (Elt Ideal))
    (a8 : (⟨Cert.ReferenceIdeal.S4x64, .f32⟩ : BufTy).Contents (Elt Ideal))
    (hs : Wp (Proc.devRef .tc main_v3) = Cert.ReferenceIdeal.Read.val_main_v3 (F := Ideal) a1)
    (hd : Wp (Proc.devRef .tc main_v6) = Cert.ReferenceIdeal.Read.val_main_v6 (F := Ideal) a1)
    (hn : Wp (Proc.devRef .tc main_v35) = Cert.ReferenceIdeal.Read.val_main_v47 (F := Ideal) a1 a2)
    (ht : Wp (Proc.devRef .tc main_v40) = Cert.ReferenceIdeal.Read.val_main_v46 (F := Ideal) a0 a3 a4 a5 a6 a7) :
    StableHlo.after hostOps1 Wp (Proc.devRef .tc main_v52) = Cert.ReferenceIdeal.Read.val_main_v59 (F := Ideal) a0 a1 a2 a3 a4 a5 a6 a7 := by
  dsimp only [hostOps1]
  after_results_simp
  rw [hs, hd, hn, ht]
  rfl

/-- Its bias row is the layer's bias vector (row 0 of the stacked biases) reshaped to a row. -/
theorem brow1 (Wp : Valuation τ sig (Elt Ideal)) (a8 : (⟨Cert.ReferenceIdeal.S4x64, .f32⟩ : BufTy).Contents (Elt Ideal))
    (h8 : Wp (Proc.devRef .tc main_arg8) = a8) :
    StableHlo.after hostOps1 Wp (Proc.devRef .tc main_v57)
      = shapeCast S1x64 (Cert.ReferenceIdeal.Read.val_main_v61 (F := Ideal) a8) shapeCasts_S64_S1x64 := by
  dsimp only [hostOps1]
  after_results
  rw [h8]
  rfl

/-- Its weight matrix is the next layer's slice of the stacked weights. -/
theorem wmat1 (Wp : Valuation τ sig (Elt Ideal)) (a7 : (⟨Cert.ReferenceIdeal.S4x64x64, .f32⟩ : BufTy).Contents (Elt Ideal))
    (h7 : Wp (Proc.devRef .tc main_arg7) = a7) :
    StableHlo.after hostOps1 Wp (Proc.devRef .tc main_v56) = Cert.ReferenceIdeal.Read.val_main_v67 (F := Ideal) a7 := by
  dsimp only [hostOps1]
  after_results
  rw [h7]
  rfl

/-- A buffer it does not write keeps its contents. -/
theorem keep1_v3 (Wp : Valuation τ sig (Elt Ideal)) : StableHlo.after hostOps1 Wp (Proc.devRef .tc main_v3) = Wp (Proc.devRef .tc main_v3) := by
  dsimp only [hostOps1]; after_results
theorem keep1_v6 (Wp : Valuation τ sig (Elt Ideal)) : StableHlo.after hostOps1 Wp (Proc.devRef .tc main_v6) = Wp (Proc.devRef .tc main_v6) := by
  dsimp only [hostOps1]; after_results
theorem keep1_v35 (Wp : Valuation τ sig (Elt Ideal)) : StableHlo.after hostOps1 Wp (Proc.devRef .tc main_v35) = Wp (Proc.devRef .tc main_v35) := by
  dsimp only [hostOps1]; after_results
theorem keep1_arg7 (Wp : Valuation τ sig (Elt Ideal)) : StableHlo.after hostOps1 Wp (Proc.devRef .tc main_arg7) = Wp (Proc.devRef .tc main_arg7) := by
  dsimp only [hostOps1]; after_results
theorem keep1_arg8 (Wp : Valuation τ sig (Elt Ideal)) : StableHlo.after hostOps1 Wp (Proc.devRef .tc main_arg8) = Wp (Proc.devRef .tc main_arg8) := by
  dsimp only [hostOps1]; after_results
theorem keep1_arg9 (Wp : Valuation τ sig (Elt Ideal)) : StableHlo.after hostOps1 Wp (Proc.devRef .tc main_arg9) = Wp (Proc.devRef .tc main_arg9) := by
  dsimp only [hostOps1]; after_results
theorem keep1_arg10 (Wp : Valuation τ sig (Elt Ideal)) : StableHlo.after hostOps1 Wp (Proc.devRef .tc main_arg10) = Wp (Proc.devRef .tc main_arg10) := by
  dsimp only [hostOps1]; after_results
theorem keep1_arg11 (Wp : Valuation τ sig (Elt Ideal)) : StableHlo.after hostOps1 Wp (Proc.devRef .tc main_arg11) = Wp (Proc.devRef .tc main_arg11) := by
  dsimp only [hostOps1]; after_results
theorem keep1_arg12 (Wp : Valuation τ sig (Elt Ideal)) : StableHlo.after hostOps1 Wp (Proc.devRef .tc main_arg12) = Wp (Proc.devRef .tc main_arg12) := by
  dsimp only [hostOps1]; after_results

/-! ## The second stretch of glue (after launch 1) -/

set_option maxHeartbeats 4000000 in
/-- Its aggregation is the reference's, when the boundary holds the reference's edge arrays and the reference's value
    of the launch's result: the same gather of rows at the source nodes, weighting by the edge norms and scatter-add at
    the target nodes, operation for operation. -/
theorem agg2 (Wp : Valuation τ sig (Elt Ideal)) (a0 : (⟨Cert.ReferenceIdeal.S100000x8, .f32⟩ : BufTy).Contents (Elt Ideal)) (a1 : (⟨Cert.ReferenceIdeal.S2x1600000, .i32⟩ : BufTy).Contents (Elt Ideal))
    (a2 : (⟨Cert.ReferenceIdeal.S1600000, .f32⟩ : BufTy).Contents (Elt Ideal)) (a3 : (⟨Cert.ReferenceIdeal.S8x64, .f32⟩ : BufTy).Contents (Elt Ideal))
    (a4 : (⟨Cert.ReferenceIdeal.S64, .f32⟩ : BufTy).Contents (Elt Ideal)) (a5 : (⟨Cert.ReferenceIdeal.S64x64, .f32⟩ : BufTy).Contents (Elt Ideal))
    (a6 : (⟨Cert.ReferenceIdeal.S64, .f32⟩ : BufTy).Contents (Elt Ideal)) (a7 : (⟨Cert.ReferenceIdeal.S4x64x64, .f32⟩ : BufTy).Contents (Elt Ideal))
    (a8 : (⟨Cert.ReferenceIdeal.S4x64, .f32⟩ : BufTy).Contents (Elt Ideal))
    (hs : Wp (Proc.devRef .tc main_v3) = Cert.ReferenceIdeal.Read.val_main_v3 (F := Ideal) a1)
    (hd : Wp (Proc.devRef .tc main_v6) = Cert.ReferenceIdeal.Read.val_main_v6 (F := Ideal) a1)
    (hn : Wp (Proc.devRef .tc main_v35) = Cert.ReferenceIdeal.Read.val_main_v47 (F := Ideal) a1 a2)
    (ht : Wp (Proc.devRef .tc main_v58) = Cert.ReferenceIdeal.Read.val_main_v68 (F := Ideal) a0 a1 a2 a3 a4 a5 a6 a7 a8) :
    StableHlo.after hostOps2 Wp (Proc.devRef .tc main_v70) = Cert.ReferenceIdeal.Read.val_main_v81 (F := Ideal) a0 a1 a2 a3 a4 a5 a6 a7 a8 := by
  dsimp only [hostOps2]
  after_results_simp
  rw [hs, hd, hn, ht]
  rfl

/-- Its bias row is the layer's bias vector (row 1 of the stacked biases) reshaped to a row. -/
theorem brow2 (Wp : Valuation τ sig (Elt Ideal)) (a8 : (⟨Cert.ReferenceIdeal.S4x64, .f32⟩ : BufTy).Contents (Elt Ideal))
    (h8 : Wp (Proc.devRef .tc main_arg8) = a8) :
    StableHlo.after hostOps2 Wp (Proc.devRef .tc main_v75)
      = shapeCast S1x64 (Cert.ReferenceIdeal.Read.val_main_v83 (F := Ideal) a8) shapeCasts_S64_S1x64 := by
  dsimp only [hostOps2]
  after_results
  rw [h8]
  rfl

/-- Its weight matrix is the next layer's slice of the stacked weights. -/
theorem wmat2 (Wp : Valuation τ sig (Elt Ideal)) (a7 : (⟨Cert.ReferenceIdeal.S4x64x64, .f32⟩ : BufTy).Contents (Elt Ideal))
    (h7 : Wp (Proc.devRef .tc main_arg7) = a7) :
    StableHlo.after hostOps2 Wp (Proc.devRef .tc main_v74) = Cert.ReferenceIdeal.Read.val_main_v89 (F := Ideal) a7 := by
  dsimp only [hostOps2]
  after_results
  rw [h7]
  rfl

/-- A buffer it does not write keeps its contents. -/
theorem keep2_v3 (Wp : Valuation τ sig (Elt Ideal)) : StableHlo.after hostOps2 Wp (Proc.devRef .tc main_v3) = Wp (Proc.devRef .tc main_v3) := by
  dsimp only [hostOps2]; after_results
theorem keep2_v6 (Wp : Valuation τ sig (Elt Ideal)) : StableHlo.after hostOps2 Wp (Proc.devRef .tc main_v6) = Wp (Proc.devRef .tc main_v6) := by
  dsimp only [hostOps2]; after_results
theorem keep2_v35 (Wp : Valuation τ sig (Elt Ideal)) : StableHlo.after hostOps2 Wp (Proc.devRef .tc main_v35) = Wp (Proc.devRef .tc main_v35) := by
  dsimp only [hostOps2]; after_results
theorem keep2_arg7 (Wp : Valuation τ sig (Elt Ideal)) : StableHlo.after hostOps2 Wp (Proc.devRef .tc main_arg7) = Wp (Proc.devRef .tc main_arg7) := by
  dsimp only [hostOps2]; after_results
theorem keep2_arg8 (Wp : Valuation τ sig (Elt Ideal)) : StableHlo.after hostOps2 Wp (Proc.devRef .tc main_arg8) = Wp (Proc.devRef .tc main_arg8) := by
  dsimp only [hostOps2]; after_results
theorem keep2_arg9 (Wp : Valuation τ sig (Elt Ideal)) : StableHlo.after hostOps2 Wp (Proc.devRef .tc main_arg9) = Wp (Proc.devRef .tc main_arg9) := by
  dsimp only [hostOps2]; after_results
theorem keep2_arg10 (Wp : Valuation τ sig (Elt Ideal)) : StableHlo.after hostOps2 Wp (Proc.devRef .tc main_arg10) = Wp (Proc.devRef .tc main_arg10) := by
  dsimp only [hostOps2]; after_results
theorem keep2_arg11 (Wp : Valuation τ sig (Elt Ideal)) : StableHlo.after hostOps2 Wp (Proc.devRef .tc main_arg11) = Wp (Proc.devRef .tc main_arg11) := by
  dsimp only [hostOps2]; after_results
theorem keep2_arg12 (Wp : Valuation τ sig (Elt Ideal)) : StableHlo.after hostOps2 Wp (Proc.devRef .tc main_arg12) = Wp (Proc.devRef .tc main_arg12) := by
  dsimp only [hostOps2]; after_results

/-! ## The third stretch of glue (after launch 2) -/

set_option maxHeartbeats 4000000 in
/-- Its aggregation is the reference's, when the boundary holds the reference's edge arrays and the reference's value
    of the launch's result: the same gather of rows at the source nodes, weighting by the edge norms and scatter-add at
    the target nodes, operation for operation. -/
theorem agg3 (Wp : Valuation τ sig (Elt Ideal)) (a0 : (⟨Cert.ReferenceIdeal.S100000x8, .f32⟩ : BufTy).Contents (Elt Ideal)) (a1 : (⟨Cert.ReferenceIdeal.S2x1600000, .i32⟩ : BufTy).Contents (Elt Ideal))
    (a2 : (⟨Cert.ReferenceIdeal.S1600000, .f32⟩ : BufTy).Contents (Elt Ideal)) (a3 : (⟨Cert.ReferenceIdeal.S8x64, .f32⟩ : BufTy).Contents (Elt Ideal))
    (a4 : (⟨Cert.ReferenceIdeal.S64, .f32⟩ : BufTy).Contents (Elt Ideal)) (a5 : (⟨Cert.ReferenceIdeal.S64x64, .f32⟩ : BufTy).Contents (Elt Ideal))
    (a6 : (⟨Cert.ReferenceIdeal.S64, .f32⟩ : BufTy).Contents (Elt Ideal)) (a7 : (⟨Cert.ReferenceIdeal.S4x64x64, .f32⟩ : BufTy).Contents (Elt Ideal))
    (a8 : (⟨Cert.ReferenceIdeal.S4x64, .f32⟩ : BufTy).Contents (Elt Ideal))
    (hs : Wp (Proc.devRef .tc main_v3) = Cert.ReferenceIdeal.Read.val_main_v3 (F := Ideal) a1)
    (hd : Wp (Proc.devRef .tc main_v6) = Cert.ReferenceIdeal.Read.val_main_v6 (F := Ideal) a1)
    (hn : Wp (Proc.devRef .tc main_v35) = Cert.ReferenceIdeal.Read.val_main_v47 (F := Ideal) a1 a2)
    (ht : Wp (Proc.devRef .tc main_v76) = Cert.ReferenceIdeal.Read.val_main_v90 (F := Ideal) a0 a1 a2 a3 a4 a5 a6 a7 a8) :
    StableHlo.after hostOps3 Wp (Proc.devRef .tc main_v88) = Cert.ReferenceIdeal.Read.val_main_v103 (F := Ideal) a0 a1 a2 a3 a4 a5 a6 a7 a8 := by
  dsimp only [hostOps3]
  after_results_simp
  rw [hs, hd, hn, ht]
  rfl

/-- Its bias row is the layer's bias vector (row 2 of the stacked biases) reshaped to a row. -/
theorem brow3 (Wp : Valuation τ sig (Elt Ideal)) (a8 : (⟨Cert.ReferenceIdeal.S4x64, .f32⟩ : BufTy).Contents (Elt Ideal))
    (h8 : Wp (Proc.devRef .tc main_arg8) = a8) :
    StableHlo.after hostOps3 Wp (Proc.devRef .tc main_v93)
      = shapeCast S1x64 (Cert.ReferenceIdeal.Read.val_main_v105 (F := Ideal) a8) shapeCasts_S64_S1x64 := by
  dsimp only [hostOps3]
  after_results
  rw [h8]
  rfl

/-- Its weight matrix is the next layer's slice of the stacked weights. -/
theorem wmat3 (Wp : Valuation τ sig (Elt Ideal)) (a7 : (⟨Cert.ReferenceIdeal.S4x64x64, .f32⟩ : BufTy).Contents (Elt Ideal))
    (h7 : Wp (Proc.devRef .tc main_arg7) = a7) :
    StableHlo.after hostOps3 Wp (Proc.devRef .tc main_v92) = Cert.ReferenceIdeal.Read.val_main_v111 (F := Ideal) a7 := by
  dsimp only [hostOps3]
  after_results
  rw [h7]
  rfl

/-- A buffer it does not write keeps its contents. -/
theorem keep3_v3 (Wp : Valuation τ sig (Elt Ideal)) : StableHlo.after hostOps3 Wp (Proc.devRef .tc main_v3) = Wp (Proc.devRef .tc main_v3) := by
  dsimp only [hostOps3]; after_results
theorem keep3_v6 (Wp : Valuation τ sig (Elt Ideal)) : StableHlo.after hostOps3 Wp (Proc.devRef .tc main_v6) = Wp (Proc.devRef .tc main_v6) := by
  dsimp only [hostOps3]; after_results
theorem keep3_v35 (Wp : Valuation τ sig (Elt Ideal)) : StableHlo.after hostOps3 Wp (Proc.devRef .tc main_v35) = Wp (Proc.devRef .tc main_v35) := by
  dsimp only [hostOps3]; after_results
theorem keep3_arg7 (Wp : Valuation τ sig (Elt Ideal)) : StableHlo.after hostOps3 Wp (Proc.devRef .tc main_arg7) = Wp (Proc.devRef .tc main_arg7) := by
  dsimp only [hostOps3]; after_results
theorem keep3_arg8 (Wp : Valuation τ sig (Elt Ideal)) : StableHlo.after hostOps3 Wp (Proc.devRef .tc main_arg8) = Wp (Proc.devRef .tc main_arg8) := by
  dsimp only [hostOps3]; after_results
theorem keep3_arg9 (Wp : Valuation τ sig (Elt Ideal)) : StableHlo.after hostOps3 Wp (Proc.devRef .tc main_arg9) = Wp (Proc.devRef .tc main_arg9) := by
  dsimp only [hostOps3]; after_results
theorem keep3_arg10 (Wp : Valuation τ sig (Elt Ideal)) : StableHlo.after hostOps3 Wp (Proc.devRef .tc main_arg10) = Wp (Proc.devRef .tc main_arg10) := by
  dsimp only [hostOps3]; after_results
theorem keep3_arg11 (Wp : Valuation τ sig (Elt Ideal)) : StableHlo.after hostOps3 Wp (Proc.devRef .tc main_arg11) = Wp (Proc.devRef .tc main_arg11) := by
  dsimp only [hostOps3]; after_results
theorem keep3_arg12 (Wp : Valuation τ sig (Elt Ideal)) : StableHlo.after hostOps3 Wp (Proc.devRef .tc main_arg12) = Wp (Proc.devRef .tc main_arg12) := by
  dsimp only [hostOps3]; after_results

/-! ## The fourth stretch of glue (after launch 3) -/

set_option maxHeartbeats 4000000 in
/-- Its aggregation is the reference's, when the boundary holds the reference's edge arrays and the reference's value
    of the launch's result: the same gather of rows at the source nodes, weighting by the edge norms and scatter-add at
    the target nodes, operation for operation. -/
theorem agg4 (Wp : Valuation τ sig (Elt Ideal)) (a0 : (⟨Cert.ReferenceIdeal.S100000x8, .f32⟩ : BufTy).Contents (Elt Ideal)) (a1 : (⟨Cert.ReferenceIdeal.S2x1600000, .i32⟩ : BufTy).Contents (Elt Ideal))
    (a2 : (⟨Cert.ReferenceIdeal.S1600000, .f32⟩ : BufTy).Contents (Elt Ideal)) (a3 : (⟨Cert.ReferenceIdeal.S8x64, .f32⟩ : BufTy).Contents (Elt Ideal))
    (a4 : (⟨Cert.ReferenceIdeal.S64, .f32⟩ : BufTy).Contents (Elt Ideal)) (a5 : (⟨Cert.ReferenceIdeal.S64x64, .f32⟩ : BufTy).Contents (Elt Ideal))
    (a6 : (⟨Cert.ReferenceIdeal.S64, .f32⟩ : BufTy).Contents (Elt Ideal)) (a7 : (⟨Cert.ReferenceIdeal.S4x64x64, .f32⟩ : BufTy).Contents (Elt Ideal))
    (a8 : (⟨Cert.ReferenceIdeal.S4x64, .f32⟩ : BufTy).Contents (Elt Ideal))
    (hs : Wp (Proc.devRef .tc main_v3) = Cert.ReferenceIdeal.Read.val_main_v3 (F := Ideal) a1)
    (hd : Wp (Proc.devRef .tc main_v6) = Cert.ReferenceIdeal.Read.val_main_v6 (F := Ideal) a1)
    (hn : Wp (Proc.devRef .tc main_v35) = Cert.ReferenceIdeal.Read.val_main_v47 (F := Ideal) a1 a2)
    (ht : Wp (Proc.devRef .tc main_v94) = Cert.ReferenceIdeal.Read.val_main_v112 (F := Ideal) a0 a1 a2 a3 a4 a5 a6 a7 a8) :
    StableHlo.after hostOps4 Wp (Proc.devRef .tc main_v106) = Cert.ReferenceIdeal.Read.val_main_v125 (F := Ideal) a0 a1 a2 a3 a4 a5 a6 a7 a8 := by
  dsimp only [hostOps4]
  after_results_simp
  rw [hs, hd, hn, ht]
  rfl

/-- Its bias row is the layer's bias vector (row 3 of the stacked biases) reshaped to a row. -/
theorem brow4 (Wp : Valuation τ sig (Elt Ideal)) (a8 : (⟨Cert.ReferenceIdeal.S4x64, .f32⟩ : BufTy).Contents (Elt Ideal))
    (h8 : Wp (Proc.devRef .tc main_arg8) = a8) :
    StableHlo.after hostOps4 Wp (Proc.devRef .tc main_v109)
      = shapeCast S1x64 (Cert.ReferenceIdeal.Read.val_main_v127 (F := Ideal) a8) shapeCasts_S64_S1x64 := by
  dsimp only [hostOps4]
  after_results
  rw [h8]
  rfl

/-- The decoder's first bias vector reshaped to a row. -/
theorem b1row4 (Wp : Valuation τ sig (Elt Ideal)) (a10 : (⟨Cert.ReferenceIdeal.S64, .f32⟩ : BufTy).Contents (Elt Ideal))
    (h10 : Wp (Proc.devRef .tc main_arg10) = a10) :
    StableHlo.after hostOps4 Wp (Proc.devRef .tc main_v110) = shapeCast S1x64 a10 shapeCasts_S64_S1x64 := by
  dsimp only [hostOps4]
  after_results
  rw [h10]
  rfl

/-- The decoder's last bias reshaped to a one-entry matrix. -/
theorem b2row4 (Wp : Valuation τ sig (Elt Ideal)) (a12 : (⟨Cert.ReferenceIdeal.S1, .f32⟩ : BufTy).Contents (Elt Ideal))
    (h12 : Wp (Proc.devRef .tc main_arg12) = a12) :
    StableHlo.after hostOps4 Wp (Proc.devRef .tc main_v111) = shapeCast S1x1 a12 shapeCasts_S1_S1x1 := by
  dsimp only [hostOps4]
  after_results
  rw [h12]
  rfl

/-- A buffer it does not write keeps its contents. -/
theorem keep4_v3 (Wp : Valuation τ sig (Elt Ideal)) : StableHlo.after hostOps4 Wp (Proc.devRef .tc main_v3) = Wp (Proc.devRef .tc main_v3) := by
  dsimp only [hostOps4]; after_results
theorem keep4_v6 (Wp : Valuation τ sig (Elt Ideal)) : StableHlo.after hostOps4 Wp (Proc.devRef .tc main_v6) = Wp (Proc.devRef .tc main_v6) := by
  dsimp only [hostOps4]; after_results
theorem keep4_v35 (Wp : Valuation τ sig (Elt Ideal)) : StableHlo.after hostOps4 Wp (Proc.devRef .tc main_v35) = Wp (Proc.devRef .tc main_v35) := by
  dsimp only [hostOps4]; after_results
theorem keep4_arg7 (Wp : Valuation τ sig (Elt Ideal)) : StableHlo.after hostOps4 Wp (Proc.devRef .tc main_arg7) = Wp (Proc.devRef .tc main_arg7) := by
  dsimp only [hostOps4]; after_results
theorem keep4_arg8 (Wp : Valuation τ sig (Elt Ideal)) : StableHlo.after hostOps4 Wp (Proc.devRef .tc main_arg8) = Wp (Proc.devRef .tc main_arg8) := by
  dsimp only [hostOps4]; after_results
theorem keep4_arg9 (Wp : Valuation τ sig (Elt Ideal)) : StableHlo.after hostOps4 Wp (Proc.devRef .tc main_arg9) = Wp (Proc.devRef .tc main_arg9) := by
  dsimp only [hostOps4]; after_results
theorem keep4_arg10 (Wp : Valuation τ sig (Elt Ideal)) : StableHlo.after hostOps4 Wp (Proc.devRef .tc main_arg10) = Wp (Proc.devRef .tc main_arg10) := by
  dsimp only [hostOps4]; after_results
theorem keep4_arg11 (Wp : Valuation τ sig (Elt Ideal)) : StableHlo.after hostOps4 Wp (Proc.devRef .tc main_arg11) = Wp (Proc.devRef .tc main_arg11) := by
  dsimp only [hostOps4]; after_results
theorem keep4_arg12 (Wp : Valuation τ sig (Elt Ideal)) : StableHlo.after hostOps4 Wp (Proc.devRef .tc main_arg12) = Wp (Proc.devRef .tc main_arg12) := by
  dsimp only [hostOps4]; after_results

end Cert.KernelIdeal.Walk

end
-- ==== Proof.LibJoinTwo.lean ====
/-
  A two-piece concatenation with its pieces as plain arguments.

  The concatenation of a list of arrays carries a proof that the pieces' shapes add up along the joined axis, and
  that proof's statement mentions the list; a rewriting pass therefore treats the list as fixed and never rewrites
  the arrays inside it.  For two pieces the same array is `join2`, whose pieces are ordinary arguments and whose
  side condition mentions their shapes only, so what each piece holds can be rewritten in place.  The tactic below
  is the host-operation read-back as one rewriting pass, with every two-piece concatenation put in that form first.
-/
import Idealize.ShloMosaic.Lib.StableHlo.Run

noncomputable section

namespace Cert.LibJoinTwo

open Idealize.ShloMosaic Idealize.ShloMosaic.StableHlo

/-- The concatenation of two arrays along axis `a` of `t`, the pieces as arguments. -/
def join2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A concatenation of a two-element list is `join2` of its pieces. -/
theorem concatenate_pair {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = join2 t a s₁ s₂ x y h := rfl

/-- What a buffer holds after a line of host operations, as ONE rewriting pass: each operation's result at its own
    buffer is its function of its operands' contents, at any other buffer what was there; a two-piece concatenation
    is put in the form whose pieces can be rewritten. -/
macro "host_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibJoinTwo.concatenate_pair]))

end Cert.LibJoinTwo

end
-- ==== Proof.WalkEntry.lean ====
/-
  The contents at the first launch's entry.

  Before the first launch the program runs the graph normalisation on the host (self loops appended to the edge list, the
  weighted in-degrees by a scatter-add, their inverse square roots where positive, the symmetric norm of every edge) and
  reshapes the encoder's bias vectors to rows and slices the first layer's weights.  The reference opens with the same
  operations on the same arguments.  So at the first launch's entry the edge arrays (sources, targets, norms) hold
  the reference's values of them, operation for operation, and the bias rows and the weight slice are the
  arguments' reshapes; no argument array has been written.
-/
import proofs.«166639_j14147622273759_1_alg».proof.Proof.Gen.KernelIdeal.Frame
import proofs.«166639_j14147622273759_1_alg».proof.Proof.Gen.ReferenceIdeal.Read
import proofs.«166639_j14147622273759_1_alg».proof.Proof.LibJoinTwo

set_option maxRecDepth 16384
set_option maxHeartbeats 4000000

noncomputable section

namespace Cert.KernelIdeal.Walk

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- The edges' source nodes, self loops appended. -/
theorem entry_src (c : Dev nD) : W5 m ρ c (Proc.devRef .tc main_v3) = Cert.ReferenceIdeal.Read.val_main_v3 (F := Ideal) (m ((c : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v3) = _
  dsimp only [hostOps0_4, hostOps0_3, hostOps0_2, hostOps0_1, hostOps0]
  after_results_simp <;> rfl

/-- The edges' target nodes, self loops appended. -/
theorem entry_dst (c : Dev nD) : W5 m ρ c (Proc.devRef .tc main_v6) = Cert.ReferenceIdeal.Read.val_main_v6 (F := Ideal) (m ((c : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v6) = _
  dsimp only [hostOps0_4, hostOps0_3, hostOps0_2, hostOps0_1, hostOps0]
  after_results_simp <;> rfl

/-! ## The edge norms, stage by stage

The norm of an edge is (the inverse square root of its source's weighted in-degree) times its weight times (the same of
its target), a node of in-degree zero counting for zero.  The in-degrees are a scatter-add of the weights (self loops of
weight one appended) at the targets; the two "where positive" selections are calls of one host function.  The
computation is followed through the five opening stretches one stage at a time, each stage the reference's own. -/

/-- The edge weights with the self loops' ones appended, after the first stretch. -/
theorem deg_w (c : Dev nD) : W1 m ρ c (Proc.devRef .tc main_v8) = Cert.ReferenceIdeal.Read.val_main_v8 (F := Ideal) (m ((c : Thread nD τ).loc main_arg2)) := by
  show StableHlo.after hostOps0 (W0 m ρ c) (Proc.devRef .tc main_v8) = _
  dsimp only [hostOps0]
  host_results <;> rfl

/-- The weighted in-degrees, after the first stretch. -/
theorem deg (c : Dev nD) : W1 m ρ c (Proc.devRef .tc main_v11) = Cert.ReferenceIdeal.Read.val_main_v11 (F := Ideal) (m ((c : Thread nD τ).loc main_arg1)) (m ((c : Thread nD τ).loc main_arg2)) := by
  show StableHlo.after hostOps0 (W0 m ρ c) (Proc.devRef .tc main_v11) = _
  dsimp only [hostOps0]
  host_results <;> rfl

/-- Where the in-degree is positive (the outer selection's condition), after the first stretch. -/
theorem deg_pos_outer (c : Dev nD) : W1 m ρ c (Proc.devRef .tc main_v13) = Cert.ReferenceIdeal.Read.val_main_v13 (F := Ideal) (m ((c : Thread nD τ).loc main_arg1)) (m ((c : Thread nD τ).loc main_arg2)) := by
  show StableHlo.after hostOps0 (W0 m ρ c) (Proc.devRef .tc main_v13) = _
  dsimp only [hostOps0]
  host_results <;> rfl

/-- Where the in-degree is positive (the inner selection's condition), after the first stretch. -/
theorem deg_pos_inner (c : Dev nD) : W1 m ρ c (Proc.devRef .tc main_v15) = Cert.ReferenceIdeal.Read.val_main_v15 (F := Ideal) (m ((c : Thread nD τ).loc main_arg1)) (m ((c : Thread nD τ).loc main_arg2)) := by
  show StableHlo.after hostOps0 (W0 m ρ c) (Proc.devRef .tc main_v15) = _
  dsimp only [hostOps0]
  host_results <;> rfl

/-- The one the inner selection falls back to, after the first stretch. -/
theorem one_scalar (c : Dev nD) : W1 m ρ c (Proc.devRef .tc main_cst_3) = Cert.ReferenceIdeal.Read.val_main_cst_3 (F := Ideal) := by
  show StableHlo.after hostOps0 (W0 m ρ c) (Proc.devRef .tc main_cst_3) = _
  dsimp only [hostOps0]
  host_results <;> rfl

/-- The inner selection (the in-degree where positive, else one), for any contents it starts from. -/
theorem inner_select (Wp : Valuation τ sig (Elt Ideal)) (a1 : (⟨Cert.ReferenceIdeal.S2x1600000, .i32⟩ : BufTy).Contents (Elt Ideal))
    (a2 : (⟨Cert.ReferenceIdeal.S1600000, .f32⟩ : BufTy).Contents (Elt Ideal))
    (h15 : Wp (Proc.devRef .tc main_v15) = Cert.ReferenceIdeal.Read.val_main_v15 (F := Ideal) a1 a2)
    (h11 : Wp (Proc.devRef .tc main_v11) = Cert.ReferenceIdeal.Read.val_main_v11 (F := Ideal) a1 a2)
    (hc : Wp (Proc.devRef .tc main_cst_3) = Cert.ReferenceIdeal.Read.val_main_cst_3 (F := Ideal)) :
    StableHlo.after hostOps0_1 Wp (Proc.devRef .tc main_v16) = Cert.ReferenceIdeal.Read.val_main_v16 (F := Ideal) a1 a2 := by
  have e : StableHlo.after hostOps0_1 Wp (Proc.devRef .tc main_v16)
      = select (Wp (Proc.devRef .tc main_v15)) (Wp (Proc.devRef .tc main_v11))
          (broadcastInDim S100000 ![] bcast_S_S100000 (Wp (Proc.devRef .tc main_cst_3))) := by
    dsimp only [hostOps0_1]
    after_results_simp
    rfl
  rw [e, h15, h11, hc]
  rfl

/-- The inner selection leaves the outer condition alone. -/
theorem inner_keeps (Wp : Valuation τ sig (Elt Ideal)) :
    StableHlo.after hostOps0_1 Wp (Proc.devRef .tc main_v13) = Wp (Proc.devRef .tc main_v13) := by
  dsimp only [hostOps0_1]; after_results

/-- The inverse square root of the selected in-degree, for any contents it starts from. -/
theorem inv_sqrt (Wp : Valuation τ sig (Elt Ideal)) (a1 : (⟨Cert.ReferenceIdeal.S2x1600000, .i32⟩ : BufTy).Contents (Elt Ideal))
    (a2 : (⟨Cert.ReferenceIdeal.S1600000, .f32⟩ : BufTy).Contents (Elt Ideal))
    (h16 : Wp (Proc.devRef .tc main_v16) = Cert.ReferenceIdeal.Read.val_main_v16 (F := Ideal) a1 a2) :
    StableHlo.after hostOps0_2 Wp (Proc.devRef .tc main_v17) = Cert.ReferenceIdeal.Read.val_main_v17 (F := Ideal) a1 a2 := by
  dsimp only [hostOps0_2]
  after_results
  rw [h16]
  rfl

/-- The zero the outer selection falls back to. -/
theorem zero_scalar (Wp : Valuation τ sig (Elt Ideal)) :
    StableHlo.after hostOps0_2 Wp (Proc.devRef .tc main_cst_4) = Cert.ReferenceIdeal.Read.val_main_cst_4 (F := Ideal) := by
  dsimp only [hostOps0_2]
  after_results
  rfl

/-- The third stretch leaves the outer condition alone. -/
theorem sqrt_keeps (Wp : Valuation τ sig (Elt Ideal)) :
    StableHlo.after hostOps0_2 Wp (Proc.devRef .tc main_v13) = Wp (Proc.devRef .tc main_v13) := by
  dsimp only [hostOps0_2]; after_results

/-- The outer selection (the inverse square root where the in-degree is positive, else zero), for any contents it
    starts from. -/
theorem outer_select (Wp : Valuation τ sig (Elt Ideal)) (a1 : (⟨Cert.ReferenceIdeal.S2x1600000, .i32⟩ : BufTy).Contents (Elt Ideal))
    (a2 : (⟨Cert.ReferenceIdeal.S1600000, .f32⟩ : BufTy).Contents (Elt Ideal))
    (h13 : Wp (Proc.devRef .tc main_v13) = Cert.ReferenceIdeal.Read.val_main_v13 (F := Ideal) a1 a2)
    (h17 : Wp (Proc.devRef .tc main_v17) = Cert.ReferenceIdeal.Read.val_main_v17 (F := Ideal) a1 a2)
    (hc : Wp (Proc.devRef .tc main_cst_4) = Cert.ReferenceIdeal.Read.val_main_cst_4 (F := Ideal)) :
    StableHlo.after hostOps0_3 Wp (Proc.devRef .tc main_v18) = Cert.ReferenceIdeal.Read.val_main_v18 (F := Ideal) a1 a2 := by
  have e : StableHlo.after hostOps0_3 Wp (Proc.devRef .tc main_v18)
      = select (Wp (Proc.devRef .tc main_v13)) (Wp (Proc.devRef .tc main_v17))
          (broadcastInDim S100000 ![] bcast_S_S100000 (Wp (Proc.devRef .tc main_cst_4))) := by
    dsimp only [hostOps0_3]
    after_results_simp
    rfl
  rw [e, h13, h17, hc]
  rfl

/-- The edges' source nodes, target nodes and weights just before the last opening stretch. -/
theorem src_4 (c : Dev nD) : W4 m ρ c (Proc.devRef .tc main_v3) = Cert.ReferenceIdeal.Read.val_main_v3 (F := Ideal) (m ((c : Thread nD τ).loc main_arg1)) := by
  show StableHlo.after hostOps0_3 (StableHlo.after hostOps0_2 (StableHlo.after hostOps0_1 (StableHlo.after hostOps0 (W0 m ρ c)))) (Proc.devRef .tc main_v3) = _
  dsimp only [hostOps0_3, hostOps0_2, hostOps0_1, hostOps0]
  host_results <;> rfl
theorem dst_4 (c : Dev nD) : W4 m ρ c (Proc.devRef .tc main_v6) = Cert.ReferenceIdeal.Read.val_main_v6 (F := Ideal) (m ((c : Thread nD τ).loc main_arg1)) := by
  show StableHlo.after hostOps0_3 (StableHlo.after hostOps0_2 (StableHlo.after hostOps0_1 (StableHlo.after hostOps0 (W0 m ρ c)))) (Proc.devRef .tc main_v6) = _
  dsimp only [hostOps0_3, hostOps0_2, hostOps0_1, hostOps0]
  host_results <;> rfl
theorem deg_w_4 (c : Dev nD) : W4 m ρ c (Proc.devRef .tc main_v8) = Cert.ReferenceIdeal.Read.val_main_v8 (F := Ideal) (m ((c : Thread nD τ).loc main_arg2)) := by
  show StableHlo.after hostOps0_3 (StableHlo.after hostOps0_2 (StableHlo.after hostOps0_1 (StableHlo.after hostOps0 (W0 m ρ c)))) (Proc.devRef .tc main_v8) = _
  dsimp only [hostOps0_3, hostOps0_2, hostOps0_1, hostOps0]
  host_results <;> rfl

set_option maxHeartbeats 4000000 in
/-- The norm column: the selected inverse square roots gathered at the sources and at the targets, times the weights,
    for any contents the last opening stretch starts from. -/
theorem norm_column (Wp : Valuation τ sig (Elt Ideal)) (a1 : (⟨Cert.ReferenceIdeal.S2x1600000, .i32⟩ : BufTy).Contents (Elt Ideal))
    (a2 : (⟨Cert.ReferenceIdeal.S1600000, .f32⟩ : BufTy).Contents (Elt Ideal))
    (hs : Wp (Proc.devRef .tc main_v3) = Cert.ReferenceIdeal.Read.val_main_v3 (F := Ideal) a1)
    (hd : Wp (Proc.devRef .tc main_v6) = Cert.ReferenceIdeal.Read.val_main_v6 (F := Ideal) a1)
    (h8 : Wp (Proc.devRef .tc main_v8) = Cert.ReferenceIdeal.Read.val_main_v8 (F := Ideal) a2)
    (h18 : Wp (Proc.devRef .tc main_v18) = Cert.ReferenceIdeal.Read.val_main_v18 (F := Ideal) a1 a2) :
    StableHlo.after hostOps0_4 Wp (Proc.devRef .tc main_v35) = Cert.ReferenceIdeal.Read.val_main_v47 (F := Ideal) a1 a2 := by
  dsimp only [hostOps0_4]
  after_results_simp
  rw [hs, hd, h8, h18]
  rfl

/-- The edges' symmetric norms, as a column. -/
theorem entry_norm (c : Dev nD) :
    W5 m ρ c (Proc.devRef .tc main_v35) = Cert.ReferenceIdeal.Read.val_main_v47 (F := Ideal) (m ((c : Thread nD τ).loc main_arg1)) (m ((c : Thread nD τ).loc main_arg2)) :=
  norm_column (W4 m ρ c) (m ((c : Thread nD τ).loc main_arg1)) (m ((c : Thread nD τ).loc main_arg2)) (src_4 m ρ c) (dst_4 m ρ c) (deg_w_4 m ρ c)
    (outer_select (W3 m ρ c) (m ((c : Thread nD τ).loc main_arg1)) (m ((c : Thread nD τ).loc main_arg2))
      ((sqrt_keeps (W2 m ρ c)).trans ((inner_keeps (W1 m ρ c)).trans (deg_pos_outer m ρ c)))
      (inv_sqrt (W2 m ρ c) (m ((c : Thread nD τ).loc main_arg1)) (m ((c : Thread nD τ).loc main_arg2))
        (inner_select (W1 m ρ c) (m ((c : Thread nD τ).loc main_arg1)) (m ((c : Thread nD τ).loc main_arg2)) (deg_pos_inner m ρ c) (deg m ρ c) (one_scalar m ρ c)))
      (zero_scalar (W2 m ρ c)))

/-- The first layer's slice of the stacked weights. -/
theorem entry_w0 (c : Dev nD) : W5 m ρ c (Proc.devRef .tc main_v37) = Cert.ReferenceIdeal.Read.val_main_v45 (F := Ideal) (m ((c : Thread nD τ).loc main_arg7)) := by
  show StableHlo.after hostOps0_4 (StableHlo.after hostOps0_3 (StableHlo.after hostOps0_2 (StableHlo.after hostOps0_1
    (StableHlo.after hostOps0 (W0 m ρ c))))) (Proc.devRef .tc main_v37) = _
  dsimp only [hostOps0_4, hostOps0_3, hostOps0_2, hostOps0_1, hostOps0]
  after_results_simp <;> rfl

/-- The encoder's first bias vector reshaped to a row. -/
theorem entry_b1 (c : Dev nD) :
    W5 m ρ c (Proc.devRef .tc main_v38) = shapeCast S1x64 (m ((c : Thread nD τ).loc main_arg4)) shapeCasts_S64_S1x64 := by
  show StableHlo.after hostOps0_4 (StableHlo.after hostOps0_3 (StableHlo.after hostOps0_2 (StableHlo.after hostOps0_1
    (StableHlo.after hostOps0 (W0 m ρ c))))) (Proc.devRef .tc main_v38) = _
  dsimp only [hostOps0_4, hostOps0_3, hostOps0_2, hostOps0_1, hostOps0]
  after_results_simp <;> rfl

/-- The encoder's second bias vector reshaped to a row. -/
theorem entry_b2 (c : Dev nD) :
    W5 m ρ c (Proc.devRef .tc main_v39) = shapeCast S1x64 (m ((c : Thread nD τ).loc main_arg6)) shapeCasts_S64_S1x64 := by
  show StableHlo.after hostOps0_4 (StableHlo.after hostOps0_3 (StableHlo.after hostOps0_2 (StableHlo.after hostOps0_1
    (StableHlo.after hostOps0 (W0 m ρ c))))) (Proc.devRef .tc main_v39) = _
  dsimp only [hostOps0_4, hostOps0_3, hostOps0_2, hostOps0_1, hostOps0]
  after_results_simp <;> rfl

/-- Argument 0 is as launched. -/
theorem entry_arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1
    (StableHlo.after hostOps0 (W0 m ρ c))))) (Proc.devRef .tc main_arg0) = _
  dsimp only [hostOps0_4, hostOps0_3, hostOps0_2, hostOps0_1, hostOps0]
  after_results_simp <;> rfl

/-- Argument 3 is as launched. -/
theorem entry_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  dsimp only [hostOps0_4, hostOps0_3, hostOps0_2, hostOps0_1, hostOps0]
  after_results_simp <;> rfl

/-- Argument 5 is as launched. -/
theorem entry_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1
    (StableHlo.after hostOps0 (W0 m ρ c))))) (Proc.devRef .tc main_arg5) = _
  dsimp only [hostOps0_4, hostOps0_3, hostOps0_2, hostOps0_1, hostOps0]
  after_results_simp <;> rfl

/-- Argument 7 is as launched. -/
theorem entry_arg7 (c : Dev nD) : W5 m ρ c (Proc.devRef .tc main_arg7) = m ((c : Thread nD τ).loc main_arg7) := by
  show StableHlo.after hostOps0_4 (StableHlo.after hostOps0_3 (StableHlo.after hostOps0_2 (StableHlo.after hostOps0_1
    (StableHlo.after hostOps0 (W0 m ρ c))))) (Proc.devRef .tc main_arg7) = _
  dsimp only [hostOps0_4, hostOps0_3, hostOps0_2, hostOps0_1, hostOps0]
  after_results_simp <;> rfl

/-- Argument 8 is as launched. -/
theorem entry_arg8 (c : Dev nD) : W5 m ρ c (Proc.devRef .tc main_arg8) = m ((c : Thread nD τ).loc main_arg8) := by
  show StableHlo.after hostOps0_4 (StableHlo.after hostOps0_3 (StableHlo.after hostOps0_2 (StableHlo.after hostOps0_1
    (StableHlo.after hostOps0 (W0 m ρ c))))) (Proc.devRef .tc main_arg8) = _
  dsimp only [hostOps0_4, hostOps0_3, hostOps0_2, hostOps0_1, hostOps0]
  after_results_simp <;> rfl

/-- Argument 9 is as launched. -/
theorem entry_arg9 (c : Dev nD) : W5 m ρ c (Proc.devRef .tc main_arg9) = m ((c : Thread nD τ).loc main_arg9) := by
  show StableHlo.after hostOps0_4 (StableHlo.after hostOps0_3 (StableHlo.after hostOps0_2 (StableHlo.after hostOps0_1
    (StableHlo.after hostOps0 (W0 m ρ c))))) (Proc.devRef .tc main_arg9) = _
  dsimp only [hostOps0_4, hostOps0_3, hostOps0_2, hostOps0_1, hostOps0]
  after_results_simp <;> rfl

/-- Argument 10 is as launched. -/
theorem entry_arg10 (c : Dev nD) : W5 m ρ c (Proc.devRef .tc main_arg10) = m ((c : Thread nD τ).loc main_arg10) := by
  show StableHlo.after hostOps0_4 (StableHlo.after hostOps0_3 (StableHlo.after hostOps0_2 (StableHlo.after hostOps0_1
    (StableHlo.after hostOps0 (W0 m ρ c))))) (Proc.devRef .tc main_arg10) = _
  dsimp only [hostOps0_4, hostOps0_3, hostOps0_2, hostOps0_1, hostOps0]
  after_results_simp <;> rfl

/-- Argument 11 is as launched. -/
theorem entry_arg11 (c : Dev nD) : W5 m ρ c (Proc.devRef .tc main_arg11) = m ((c : Thread nD τ).loc main_arg11) := by
  show StableHlo.after hostOps0_4 (StableHlo.after hostOps0_3 (StableHlo.after hostOps0_2 (StableHlo.after hostOps0_1
    (StableHlo.after hostOps0 (W0 m ρ c))))) (Proc.devRef .tc main_arg11) = _
  dsimp only [hostOps0_4, hostOps0_3, hostOps0_2, hostOps0_1, hostOps0]
  after_results_simp <;> rfl

/-- Argument 12 is as launched. -/
theorem entry_arg12 (c : Dev nD) : W5 m ρ c (Proc.devRef .tc main_arg12) = m ((c : Thread nD τ).loc main_arg12) := by
  show StableHlo.after hostOps0_4 (StableHlo.after hostOps0_3 (StableHlo.after hostOps0_2 (StableHlo.after hostOps0_1
    (StableHlo.after hostOps0 (W0 m ρ c))))) (Proc.devRef .tc main_arg12) = _
  dsimp only [hostOps0_4, hostOps0_3, hostOps0_2, hostOps0_1, hostOps0]
  after_results_simp <;> rfl

end Cert.KernelIdeal.Walk

end
-- ==== Proof.Walk.lean ====
/-
  The idealized kernel's result is the reference's term of the launch memory.

  The contents of a core's buffers are followed from the launch to the return.  At the first launch's entry the edge
  arrays hold the reference's values and no argument has been written.  A launch leaves its dense stage of the arrays it
  found in its result array and every other buffer as it was; a stretch of glue leaves the reference's aggregation of
  the launch's result, given the reference's edge arrays, and the next layer's bias row and weights, and does not touch
  the edge arrays or the arguments.  By induction along the five launches the result of launch k is the reference's
  value after its (k+1)-st linear map, and the last launch's result is the reference's result: at every step the dense
  stage is the one of the reference (both are `encode`, `layer` or `decode` of equal operands) and the aggregation is the
  reference's own term.
-/
import proofs.«166639_j14147622273759_1_alg».proof.Proof.Region0
import proofs.«166639_j14147622273759_1_alg».proof.Proof.Region1
import proofs.«166639_j14147622273759_1_alg».proof.Proof.Region2
import proofs.«166639_j14147622273759_1_alg».proof.Proof.Region3
import proofs.«166639_j14147622273759_1_alg».proof.Proof.Region4
import proofs.«166639_j14147622273759_1_alg».proof.Proof.RefStages
import proofs.«166639_j14147622273759_1_alg».proof.Proof.WalkHost
import proofs.«166639_j14147622273759_1_alg».proof.Proof.WalkEntry

set_option maxRecDepth 16384

noncomputable section

namespace Cert.KernelIdeal.Walk

open Cert.KernelIdeal Cert.KernelIdeal.Gen Cert.Dense Cert.LibRowStages
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The edge arrays and the arguments are never written after the first launch's entry -/

theorem at6_v3 (c : Dev nD) : W6 m ρ c (Proc.devRef .tc main_v3) = W5 m ρ c (Proc.devRef .tc main_v3) := W6_of_ne m ρ c main_v3 (by decide)
theorem at8_v3 (c : Dev nD) : W8 m ρ c (Proc.devRef .tc main_v3) = W5 m ρ c (Proc.devRef .tc main_v3) :=
  (W8_of_ne m ρ c main_v3 (by decide)).trans ((keep1_v3 (W6 m ρ c)).trans (at6_v3 m ρ c))
theorem at10_v3 (c : Dev nD) : W10 m ρ c (Proc.devRef .tc main_v3) = W5 m ρ c (Proc.devRef .tc main_v3) :=
  (W10_of_ne m ρ c main_v3 (by decide)).trans ((keep2_v3 (W8 m ρ c)).trans (at8_v3 m ρ c))
theorem at12_v3 (c : Dev nD) : W12 m ρ c (Proc.devRef .tc main_v3) = W5 m ρ c (Proc.devRef .tc main_v3) :=
  (W12_of_ne m ρ c main_v3 (by decide)).trans ((keep3_v3 (W10 m ρ c)).trans (at10_v3 m ρ c))
theorem at13_v3 (c : Dev nD) : W13 m ρ c (Proc.devRef .tc main_v3) = W5 m ρ c (Proc.devRef .tc main_v3) :=
  (keep4_v3 (W12 m ρ c)).trans (at12_v3 m ρ c)

theorem at6_v6 (c : Dev nD) : W6 m ρ c (Proc.devRef .tc main_v6) = W5 m ρ c (Proc.devRef .tc main_v6) := W6_of_ne m ρ c main_v6 (by decide)
theorem at8_v6 (c : Dev nD) : W8 m ρ c (Proc.devRef .tc main_v6) = W5 m ρ c (Proc.devRef .tc main_v6) :=
  (W8_of_ne m ρ c main_v6 (by decide)).trans ((keep1_v6 (W6 m ρ c)).trans (at6_v6 m ρ c))
theorem at10_v6 (c : Dev nD) : W10 m ρ c (Proc.devRef .tc main_v6) = W5 m ρ c (Proc.devRef .tc main_v6) :=
  (W10_of_ne m ρ c main_v6 (by decide)).trans ((keep2_v6 (W8 m ρ c)).trans (at8_v6 m ρ c))
theorem at12_v6 (c : Dev nD) : W12 m ρ c (Proc.devRef .tc main_v6) = W5 m ρ c (Proc.devRef .tc main_v6) :=
  (W12_of_ne m ρ c main_v6 (by decide)).trans ((keep3_v6 (W10 m ρ c)).trans (at10_v6 m ρ c))
theorem at13_v6 (c : Dev nD) : W13 m ρ c (Proc.devRef .tc main_v6) = W5 m ρ c (Proc.devRef .tc main_v6) :=
  (keep4_v6 (W12 m ρ c)).trans (at12_v6 m ρ c)

theorem at6_v35 (c : Dev nD) : W6 m ρ c (Proc.devRef .tc main_v35) = W5 m ρ c (Proc.devRef .tc main_v35) := W6_of_ne m ρ c main_v35 (by decide)
theorem at8_v35 (c : Dev nD) : W8 m ρ c (Proc.devRef .tc main_v35) = W5 m ρ c (Proc.devRef .tc main_v35) :=
  (W8_of_ne m ρ c main_v35 (by decide)).trans ((keep1_v35 (W6 m ρ c)).trans (at6_v35 m ρ c))
theorem at10_v35 (c : Dev nD) : W10 m ρ c (Proc.devRef .tc main_v35) = W5 m ρ c (Proc.devRef .tc main_v35) :=
  (W10_of_ne m ρ c main_v35 (by decide)).trans ((keep2_v35 (W8 m ρ c)).trans (at8_v35 m ρ c))
theorem at12_v35 (c : Dev nD) : W12 m ρ c (Proc.devRef .tc main_v35) = W5 m ρ c (Proc.devRef .tc main_v35) :=
  (W12_of_ne m ρ c main_v35 (by decide)).trans ((keep3_v35 (W10 m ρ c)).trans (at10_v35 m ρ c))
theorem at13_v35 (c : Dev nD) : W13 m ρ c (Proc.devRef .tc main_v35) = W5 m ρ c (Proc.devRef .tc main_v35) :=
  (keep4_v35 (W12 m ρ c)).trans (at12_v35 m ρ c)

theorem at6_arg7 (c : Dev nD) : W6 m ρ c (Proc.devRef .tc main_arg7) = W5 m ρ c (Proc.devRef .tc main_arg7) := W6_of_ne m ρ c main_arg7 (by decide)
theorem at8_arg7 (c : Dev nD) : W8 m ρ c (Proc.devRef .tc main_arg7) = W5 m ρ c (Proc.devRef .tc main_arg7) :=
  (W8_of_ne m ρ c main_arg7 (by decide)).trans ((keep1_arg7 (W6 m ρ c)).trans (at6_arg7 m ρ c))
theorem at10_arg7 (c : Dev nD) : W10 m ρ c (Proc.devRef .tc main_arg7) = W5 m ρ c (Proc.devRef .tc main_arg7) :=
  (W10_of_ne m ρ c main_arg7 (by decide)).trans ((keep2_arg7 (W8 m ρ c)).trans (at8_arg7 m ρ c))
theorem at12_arg7 (c : Dev nD) : W12 m ρ c (Proc.devRef .tc main_arg7) = W5 m ρ c (Proc.devRef .tc main_arg7) :=
  (W12_of_ne m ρ c main_arg7 (by decide)).trans ((keep3_arg7 (W10 m ρ c)).trans (at10_arg7 m ρ c))
theorem at13_arg7 (c : Dev nD) : W13 m ρ c (Proc.devRef .tc main_arg7) = W5 m ρ c (Proc.devRef .tc main_arg7) :=
  (keep4_arg7 (W12 m ρ c)).trans (at12_arg7 m ρ c)

theorem at6_arg8 (c : Dev nD) : W6 m ρ c (Proc.devRef .tc main_arg8) = W5 m ρ c (Proc.devRef .tc main_arg8) := W6_of_ne m ρ c main_arg8 (by decide)
theorem at8_arg8 (c : Dev nD) : W8 m ρ c (Proc.devRef .tc main_arg8) = W5 m ρ c (Proc.devRef .tc main_arg8) :=
  (W8_of_ne m ρ c main_arg8 (by decide)).trans ((keep1_arg8 (W6 m ρ c)).trans (at6_arg8 m ρ c))
theorem at10_arg8 (c : Dev nD) : W10 m ρ c (Proc.devRef .tc main_arg8) = W5 m ρ c (Proc.devRef .tc main_arg8) :=
  (W10_of_ne m ρ c main_arg8 (by decide)).trans ((keep2_arg8 (W8 m ρ c)).trans (at8_arg8 m ρ c))
theorem at12_arg8 (c : Dev nD) : W12 m ρ c (Proc.devRef .tc main_arg8) = W5 m ρ c (Proc.devRef .tc main_arg8) :=
  (W12_of_ne m ρ c main_arg8 (by decide)).trans ((keep3_arg8 (W10 m ρ c)).trans (at10_arg8 m ρ c))
theorem at13_arg8 (c : Dev nD) : W13 m ρ c (Proc.devRef .tc main_arg8) = W5 m ρ c (Proc.devRef .tc main_arg8) :=
  (keep4_arg8 (W12 m ρ c)).trans (at12_arg8 m ρ c)

theorem at6_arg9 (c : Dev nD) : W6 m ρ c (Proc.devRef .tc main_arg9) = W5 m ρ c (Proc.devRef .tc main_arg9) := W6_of_ne m ρ c main_arg9 (by decide)
theorem at8_arg9 (c : Dev nD) : W8 m ρ c (Proc.devRef .tc main_arg9) = W5 m ρ c (Proc.devRef .tc main_arg9) :=
  (W8_of_ne m ρ c main_arg9 (by decide)).trans ((keep1_arg9 (W6 m ρ c)).trans (at6_arg9 m ρ c))
theorem at10_arg9 (c : Dev nD) : W10 m ρ c (Proc.devRef .tc main_arg9) = W5 m ρ c (Proc.devRef .tc main_arg9) :=
  (W10_of_ne m ρ c main_arg9 (by decide)).trans ((keep2_arg9 (W8 m ρ c)).trans (at8_arg9 m ρ c))
theorem at12_arg9 (c : Dev nD) : W12 m ρ c (Proc.devRef .tc main_arg9) = W5 m ρ c (Proc.devRef .tc main_arg9) :=
  (W12_of_ne m ρ c main_arg9 (by decide)).trans ((keep3_arg9 (W10 m ρ c)).trans (at10_arg9 m ρ c))
theorem at13_arg9 (c : Dev nD) : W13 m ρ c (Proc.devRef .tc main_arg9) = W5 m ρ c (Proc.devRef .tc main_arg9) :=
  (keep4_arg9 (W12 m ρ c)).trans (at12_arg9 m ρ c)

theorem at6_arg10 (c : Dev nD) : W6 m ρ c (Proc.devRef .tc main_arg10) = W5 m ρ c (Proc.devRef .tc main_arg10) := W6_of_ne m ρ c main_arg10 (by decide)
theorem at8_arg10 (c : Dev nD) : W8 m ρ c (Proc.devRef .tc main_arg10) = W5 m ρ c (Proc.devRef .tc main_arg10) :=
  (W8_of_ne m ρ c main_arg10 (by decide)).trans ((keep1_arg10 (W6 m ρ c)).trans (at6_arg10 m ρ c))
theorem at10_arg10 (c : Dev nD) : W10 m ρ c (Proc.devRef .tc main_arg10) = W5 m ρ c (Proc.devRef .tc main_arg10) :=
  (W10_of_ne m ρ c main_arg10 (by decide)).trans ((keep2_arg10 (W8 m ρ c)).trans (at8_arg10 m ρ c))
theorem at12_arg10 (c : Dev nD) : W12 m ρ c (Proc.devRef .tc main_arg10) = W5 m ρ c (Proc.devRef .tc main_arg10) :=
  (W12_of_ne m ρ c main_arg10 (by decide)).trans ((keep3_arg10 (W10 m ρ c)).trans (at10_arg10 m ρ c))
theorem at13_arg10 (c : Dev nD) : W13 m ρ c (Proc.devRef .tc main_arg10) = W5 m ρ c (Proc.devRef .tc main_arg10) :=
  (keep4_arg10 (W12 m ρ c)).trans (at12_arg10 m ρ c)

theorem at6_arg11 (c : Dev nD) : W6 m ρ c (Proc.devRef .tc main_arg11) = W5 m ρ c (Proc.devRef .tc main_arg11) := W6_of_ne m ρ c main_arg11 (by decide)
theorem at8_arg11 (c : Dev nD) : W8 m ρ c (Proc.devRef .tc main_arg11) = W5 m ρ c (Proc.devRef .tc main_arg11) :=
  (W8_of_ne m ρ c main_arg11 (by decide)).trans ((keep1_arg11 (W6 m ρ c)).trans (at6_arg11 m ρ c))
theorem at10_arg11 (c : Dev nD) : W10 m ρ c (Proc.devRef .tc main_arg11) = W5 m ρ c (Proc.devRef .tc main_arg11) :=
  (W10_of_ne m ρ c main_arg11 (by decide)).trans ((keep2_arg11 (W8 m ρ c)).trans (at8_arg11 m ρ c))
theorem at12_arg11 (c : Dev nD) : W12 m ρ c (Proc.devRef .tc main_arg11) = W5 m ρ c (Proc.devRef .tc main_arg11) :=
  (W12_of_ne m ρ c main_arg11 (by decide)).trans ((keep3_arg11 (W10 m ρ c)).trans (at10_arg11 m ρ c))
theorem at13_arg11 (c : Dev nD) : W13 m ρ c (Proc.devRef .tc main_arg11) = W5 m ρ c (Proc.devRef .tc main_arg11) :=
  (keep4_arg11 (W12 m ρ c)).trans (at12_arg11 m ρ c)

theorem at6_arg12 (c : Dev nD) : W6 m ρ c (Proc.devRef .tc main_arg12) = W5 m ρ c (Proc.devRef .tc main_arg12) := W6_of_ne m ρ c main_arg12 (by decide)
theorem at8_arg12 (c : Dev nD) : W8 m ρ c (Proc.devRef .tc main_arg12) = W5 m ρ c (Proc.devRef .tc main_arg12) :=
  (W8_of_ne m ρ c main_arg12 (by decide)).trans ((keep1_arg12 (W6 m ρ c)).trans (at6_arg12 m ρ c))
theorem at10_arg12 (c : Dev nD) : W10 m ρ c (Proc.devRef .tc main_arg12) = W5 m ρ c (Proc.devRef .tc main_arg12) :=
  (W10_of_ne m ρ c main_arg12 (by decide)).trans ((keep2_arg12 (W8 m ρ c)).trans (at8_arg12 m ρ c))
theorem at12_arg12 (c : Dev nD) : W12 m ρ c (Proc.devRef .tc main_arg12) = W5 m ρ c (Proc.devRef .tc main_arg12) :=
  (W12_of_ne m ρ c main_arg12 (by decide)).trans ((keep3_arg12 (W10 m ρ c)).trans (at10_arg12 m ρ c))
theorem at13_arg12 (c : Dev nD) : W13 m ρ c (Proc.devRef .tc main_arg12) = W5 m ρ c (Proc.devRef .tc main_arg12) :=
  (keep4_arg12 (W12 m ρ c)).trans (at12_arg12 m ρ c)

/-! ## The launches, in order -/

/-- What the first launch leaves: the reference's value after its first layer's linear map. -/
theorem stage_0 (c : Dev nD) : W6 m ρ c (Proc.devRef .tc main_v40) = Cert.ReferenceIdeal.Read.val_main_v46 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) :=
  (W6_arr m ρ c 6).trans ((Cert.KernelIdeal.Region0.value (V5 m ρ) c).trans (by
    show encode (W5 m ρ c (Proc.devRef .tc main_arg0)) (W5 m ρ c (Proc.devRef .tc main_arg3)) (W5 m ρ c (Proc.devRef .tc main_v38))
      (W5 m ρ c (Proc.devRef .tc main_arg5)) (W5 m ρ c (Proc.devRef .tc main_v39)) (W5 m ρ c (Proc.devRef .tc main_v37)) = _
    rw [entry_arg0 m ρ c, entry_arg3 m ρ c, entry_b1 m ρ c, entry_arg5 m ρ c, entry_b2 m ρ c, entry_w0 m ρ c]
    exact (Cert.ReferenceIdeal.Stages.encode_eq _ _ _ _ _ _ _).symm))

/-- The first aggregation, as the second launch finds it. -/
theorem agg_1 (c : Dev nD) : W7 m ρ c (Proc.devRef .tc main_v52) = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  agg1 (W6 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ((at6_v3 m ρ c).trans (entry_src m ρ c)) ((at6_v6 m ρ c).trans (entry_dst m ρ c))
    ((at6_v35 m ρ c).trans (entry_norm m ρ c)) (stage_0 m ρ c)

/-- The bias row the second launch finds. -/
theorem brow_1 (c : Dev nD) : W7 m ρ c (Proc.devRef .tc main_v57)
    = shapeCast S1x64 (Cert.ReferenceIdeal.Read.val_main_v61 (F := Ideal) (m ((c : Thread nD τ).loc main_arg8))) shapeCasts_S64_S1x64 :=
  brow1 (W6 m ρ c) (m ((c : Thread nD τ).loc main_arg8)) ((at6_arg8 m ρ c).trans (entry_arg8 m ρ c))

/-- The weights the second launch finds. -/
theorem wmat_1 (c : Dev nD) : W7 m ρ c (Proc.devRef .tc main_v56) = Cert.ReferenceIdeal.Read.val_main_v67 (F := Ideal) (m ((c : Thread nD τ).loc main_arg7)) :=
  wmat1 (W6 m ρ c) (m ((c : Thread nD τ).loc main_arg7)) ((at6_arg7 m ρ c).trans (entry_arg7 m ρ c))

/-- What launch 1 leaves: the reference's value after its second layer's linear map. -/
theorem stage_1 (c : Dev nD) : W8 m ρ c (Proc.devRef .tc main_v58) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W8_arr m ρ c 3).trans ((Cert.KernelIdeal.Region1.value (V7 m ρ) c).trans (by
    show layer (W7 m ρ c (Proc.devRef .tc main_v52)) (W7 m ρ c (Proc.devRef .tc main_v57)) (W7 m ρ c (Proc.devRef .tc main_v56)) = _
    rw [agg_1 m ρ c, brow_1 m ρ c, wmat_1 m ρ c]
    exact (Cert.ReferenceIdeal.Stages.layer1_eq _ _ _ _ _ _ _ _ _ _).symm))

/-- The second aggregation, as the third launch finds it. -/
theorem agg_2 (c : Dev nD) : W9 m ρ c (Proc.devRef .tc main_v70) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  agg2 (W8 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ((at8_v3 m ρ c).trans (entry_src m ρ c)) ((at8_v6 m ρ c).trans (entry_dst m ρ c))
    ((at8_v35 m ρ c).trans (entry_norm m ρ c)) (stage_1 m ρ c)

/-- The bias row the third launch finds. -/
theorem brow_2 (c : Dev nD) : W9 m ρ c (Proc.devRef .tc main_v75)
    = shapeCast S1x64 (Cert.ReferenceIdeal.Read.val_main_v83 (F := Ideal) (m ((c : Thread nD τ).loc main_arg8))) shapeCasts_S64_S1x64 :=
  brow2 (W8 m ρ c) (m ((c : Thread nD τ).loc main_arg8)) ((at8_arg8 m ρ c).trans (entry_arg8 m ρ c))

/-- The weights the third launch finds. -/
theorem wmat_2 (c : Dev nD) : W9 m ρ c (Proc.devRef .tc main_v74) = Cert.ReferenceIdeal.Read.val_main_v89 (F := Ideal) (m ((c : Thread nD τ).loc main_arg7)) :=
  wmat2 (W8 m ρ c) (m ((c : Thread nD τ).loc main_arg7)) ((at8_arg7 m ρ c).trans (entry_arg7 m ρ c))

/-- What launch 2 leaves: the reference's value after its third layer's linear map. -/
theorem stage_2 (c : Dev nD) : W10 m ρ c (Proc.devRef .tc main_v76) = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W10_arr m ρ c 3).trans ((Cert.KernelIdeal.Region2.value (V9 m ρ) c).trans (by
    show layer (W9 m ρ c (Proc.devRef .tc main_v70)) (W9 m ρ c (Proc.devRef .tc main_v75)) (W9 m ρ c (Proc.devRef .tc main_v74)) = _
    rw [agg_2 m ρ c, brow_2 m ρ c, wmat_2 m ρ c]
    exact (Cert.ReferenceIdeal.Stages.layer2_eq _ _ _ _ _ _ _ _ _ _).symm))

/-- The third aggregation, as the fourth launch finds it. -/
theorem agg_3 (c : Dev nD) : W11 m ρ c (Proc.devRef .tc main_v88) = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  agg3 (W10 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ((at10_v3 m ρ c).trans (entry_src m ρ c)) ((at10_v6 m ρ c).trans (entry_dst m ρ c))
    ((at10_v35 m ρ c).trans (entry_norm m ρ c)) (stage_2 m ρ c)

/-- The bias row the fourth launch finds. -/
theorem brow_3 (c : Dev nD) : W11 m ρ c (Proc.devRef .tc main_v93)
    = shapeCast S1x64 (Cert.ReferenceIdeal.Read.val_main_v105 (F := Ideal) (m ((c : Thread nD τ).loc main_arg8))) shapeCasts_S64_S1x64 :=
  brow3 (W10 m ρ c) (m ((c : Thread nD τ).loc main_arg8)) ((at10_arg8 m ρ c).trans (entry_arg8 m ρ c))

/-- The weights the fourth launch finds. -/
theorem wmat_3 (c : Dev nD) : W11 m ρ c (Proc.devRef .tc main_v92) = Cert.ReferenceIdeal.Read.val_main_v111 (F := Ideal) (m ((c : Thread nD τ).loc main_arg7)) :=
  wmat3 (W10 m ρ c) (m ((c : Thread nD τ).loc main_arg7)) ((at10_arg7 m ρ c).trans (entry_arg7 m ρ c))

/-- What launch 3 leaves: the reference's value after its fourth layer's linear map. -/
theorem stage_3 (c : Dev nD) : W12 m ρ c (Proc.devRef .tc main_v94) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W12_arr m ρ c 3).trans ((Cert.KernelIdeal.Region3.value (V11 m ρ) c).trans (by
    show layer (W11 m ρ c (Proc.devRef .tc main_v88)) (W11 m ρ c (Proc.devRef .tc main_v93)) (W11 m ρ c (Proc.devRef .tc main_v92)) = _
    rw [agg_3 m ρ c, brow_3 m ρ c, wmat_3 m ρ c]
    exact (Cert.ReferenceIdeal.Stages.layer3_eq _ _ _ _ _ _ _ _ _ _).symm))

/-- The fourth aggregation, as the last launch finds it. -/
theorem agg_4 (c : Dev nD) : W13 m ρ c (Proc.devRef .tc main_v106) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  agg4 (W12 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ((at12_v3 m ρ c).trans (entry_src m ρ c)) ((at12_v6 m ρ c).trans (entry_dst m ρ c))
    ((at12_v35 m ρ c).trans (entry_norm m ρ c)) (stage_3 m ρ c)

/-- The last layer's bias row, as the last launch finds it. -/
theorem brow_4 (c : Dev nD) : W13 m ρ c (Proc.devRef .tc main_v109)
    = shapeCast S1x64 (Cert.ReferenceIdeal.Read.val_main_v127 (F := Ideal) (m ((c : Thread nD τ).loc main_arg8))) shapeCasts_S64_S1x64 :=
  brow4 (W12 m ρ c) (m ((c : Thread nD τ).loc main_arg8)) ((at12_arg8 m ρ c).trans (entry_arg8 m ρ c))

/-- The decoder's first bias row, as the last launch finds it. -/
theorem b1row_4 (c : Dev nD) : W13 m ρ c (Proc.devRef .tc main_v110) = shapeCast S1x64 (m ((c : Thread nD τ).loc main_arg10)) shapeCasts_S64_S1x64 :=
  b1row4 (W12 m ρ c) (m ((c : Thread nD τ).loc main_arg10)) ((at12_arg10 m ρ c).trans (entry_arg10 m ρ c))

/-- The decoder's last bias, as the last launch finds it. -/
theorem b2row_4 (c : Dev nD) : W13 m ρ c (Proc.devRef .tc main_v111) = shapeCast S1x1 (m ((c : Thread nD τ).loc main_arg12)) shapeCasts_S1_S1x1 :=
  b2row4 (W12 m ρ c) (m ((c : Thread nD τ).loc main_arg12)) ((at12_arg12 m ρ c).trans (entry_arg12 m ρ c))

/-- The decoder's weight matrices are as launched. -/
theorem w1_4 (c : Dev nD) : W13 m ρ c (Proc.devRef .tc main_arg9) = m ((c : Thread nD τ).loc main_arg9) :=
  (at13_arg9 m ρ c).trans (entry_arg9 m ρ c)
theorem w2_4 (c : Dev nD) : W13 m ρ c (Proc.devRef .tc main_arg11) = m ((c : Thread nD τ).loc main_arg11) :=
  (at13_arg11 m ρ c).trans (entry_arg11 m ρ c)

/-- The result array at the return is the reference's result term of the launch memory. -/
theorem result (c : Dev nD) : W14 m ρ c (Proc.devRef .tc main_v112)
    = Cert.ReferenceIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W14_arr m ρ c 6).trans ((Cert.KernelIdeal.Region4.value (V13 m ρ) c).trans (by
    show decode (W13 m ρ c (Proc.devRef .tc main_v106)) (W13 m ρ c (Proc.devRef .tc main_v109)) (W13 m ρ c (Proc.devRef .tc main_arg9))
      (W13 m ρ c (Proc.devRef .tc main_v110)) (W13 m ρ c (Proc.devRef .tc main_arg11)) (W13 m ρ c (Proc.devRef .tc main_v111)) = _
    rw [agg_4 m ρ c, brow_4 m ρ c, w1_4 m ρ c, b1row_4 m ρ c, w2_4 m ρ c, b2row_4 m ρ c]
    exact (Cert.ReferenceIdeal.Stages.decode_eq _ _ _ _ _ _ _ _ _ _ _ _ _ _ _).symm))

end Cert.KernelIdeal.Walk

end
-- ==== Proof.lean ====
/-
  A graph network's forward pass (an encoder, four graph convolutions over 1.6 million weighted edges with self loops,
  a decoder) computed with five row-blocked kernels for its dense stages, against the same network written with plain
  matrix products: the two end with equal results as extended reals.

  Both programs run the same graph normalisation and, between dense stages, the same gather of node rows at the edges'
  sources, weighting by the edge norms and scatter-add at the edges' targets.  They differ only in how a dense stage is
  computed: the kernels round their matrix products' operands to a narrower float format, accumulate from a zero
  accumulator, walk the 100000 nodes in blocks of 5000 rows, and fuse each layer's bias and rectifier with the next
  linear map; the reference contracts whole matrices.  On the extended reals a change of float format changes nothing
  and a product into a zero accumulator is the plain sum, and every dense stage works one node row at a time, so a
  stage computed block by block is the stage of the whole matrix (Proof/LibRowStages.lean, Proof/Dense.lean).  Hence each launch leaves the
  reference's value of its stage (Proof/Region0 … Region4, Proof/RefStages), each stretch of glue in between leaves
  the reference's aggregation because it is the same operations on equal operands (Proof/WalkHost, Proof/WalkEntry),
  and by induction along the five launches the kernel program's result is the reference's result term of the
  arguments (Proof/Walk).  No law that fails at an infinity is used, so the finiteness of the inputs is never opened.

  The word-level program and its idealization are the same text (no operation was rewritten), so there is nothing to
  preserve; the three frames are the generated ones, the reference's being its generated run with the result dropped.
-/
import proofs.«166639_j14147622273759_1_alg».proof.Defs
import proofs.«166639_j14147622273759_1_alg».proof.Proof.Gen.Kernel
import proofs.«166639_j14147622273759_1_alg».proof.Proof.Gen.Kernel.Frame
import proofs.«166639_j14147622273759_1_alg».proof.Proof.Gen.KernelIdeal
import proofs.«166639_j14147622273759_1_alg».proof.Proof.Gen.KernelIdeal.Frame
import proofs.«166639_j14147622273759_1_alg».proof.Proof.Gen.ReferenceIdeal
import proofs.«166639_j14147622273759_1_alg».proof.Proof.Gen.ReferenceIdeal.Run
import proofs.«166639_j14147622273759_1_alg».proof.Proof.Gen.ReferenceIdeal.Read
import proofs.«166639_j14147622273759_1_alg».proof.Proof.Gen.Pre_finite_inputs
import proofs.«166639_j14147622273759_1_alg».proof.Proof.KernelRun
import proofs.«166639_j14147622273759_1_alg».proof.Proof.Walk

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the arguments, the kernel program ends with its result array at the last
    boundary's contents, which are the reference's result term of the kernel's launch memory; the reference ends with
    its result at the same term of its own launch memory; and the two memories hold the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W14 m ρ c (Proc.devRef .tc Cert.KernelIdeal.main_v112), Cert.KernelIdeal.Result.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7, e8, e9, e10, e11, e12⟩ := hagree c
  rw [Cert.ReferenceIdeal.Read.val_main_v140_eq, e0, e1, e2, e3, e4, e5, e6, e7, e8, e9, e10, e11, e12]
  exact (Cert.KernelIdeal.Walk.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
